-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x256 : Shape := ⟨4, ![4, 256, 128, 256]⟩
abbrev S19x10x256 : Shape := ⟨3, ![19, 10, 256]⟩
abbrev S19 : Shape := ⟨1, ![19]⟩
abbrev S_ : Shape := ⟨0, ![]⟩

class Facts : Prop where
  bcast_S_S4x256x128x256 : S_.BroadcastsInDim S4x256x128x256 (![] : Fin 0 → Fin S4x256x128x256.rank)
  reducesTo_S4x256x128x256_S_d0_1_2_3 : S4x256x128x256.ReducesTo [0, 1, 2, 3] S_
  h_S_ : 0 < S_.numel
  bcast_S_S19x10x256 : S_.BroadcastsInDim S19x10x256 (![] : Fin 0 → Fin S19x10x256.rank)
  reducesTo_S19x10x256_S_d0_1_2 : S19x10x256.ReducesTo [0, 1, 2] S_
  bcast_S_S19 : S_.BroadcastsInDim S19 (![] : Fin 0 → Fin S19.rank)
  reducesTo_S19_S_d0 : S19.ReducesTo [0] S_

variable [Facts]

def fn_part1 {F : FTy → Type} [FloatOps F] (main_v13 : IVec S_ 1) (main_v16 : IVec S19 1) : IVec S_ 1 :=
  let main_c_5 : IVec S_ 1 := constantI S_ 1 1#1
  let main_v17 : IVec S_ 1 := (fun x v => Host.reduce IntOp.andi x v reducesTo_S19_S_d0 h_S_) main_v16 main_c_5
  let main_v18 : IVec S_ 1 := andi main_v13 main_v17
  main_v18

def fn {F : FTy → Type} [FloatOps F] (main_arg0 : FVec F S4x256x128x256 .f32) (main_arg1 : FVec F S19x10x256 .f32) (main_arg2 : FVec F S19 .f32) (main_arg3 : FVec F S19 .f32) : IVec S_ 1 :=
  let main_v0 : FVec F S4x256x128x256 .f32 := Host.absf main_arg0
  let main_cst : FVec F S_ .f32 := constant S_ .f32 0x7F800000#32
  let main_v1 : FVec F S4x256x128x256 .f32 := broadcastInDim S4x256x128x256 ![] bcast_S_S4x256x128x256 main_cst
  let main_v2 : IVec S4x256x128x256 1 := cmpf .olt main_v0 main_v1
  let main_c : IVec S_ 1 := constantI S_ 1 1#1
  let main_v3 : IVec S_ 1 := (fun x v => Host.reduce IntOp.andi x v reducesTo_S4x256x128x256_S_d0_1_2_3 h_S_) main_v2 main_c
  let main_v4 : FVec F S19x10x256 .f32 := Host.absf main_arg1
  let main_cst_0 : FVec F S_ .f32 := constant S_ .f32 0x7F800000#32
  let main_v5 : FVec F S19x10x256 .f32 := broadcastInDim S19x10x256 ![] bcast_S_S19x10x256 main_cst_0
  let main_v6 : IVec S19x10x256 1 := cmpf .olt main_v4 main_v5
  let main_c_1 : IVec S_ 1 := constantI S_ 1 1#1
  let main_v7 : IVec S_ 1 := (fun x v => Host.reduce IntOp.andi x v reducesTo_S19x10x256_S_d0_1_2 h_S_) main_v6 main_c_1
  let main_v8 : IVec S_ 1 := andi main_v3 main_v7
  let main_v9 : FVec F S19 .f32 := Host.absf main_arg2
  let main_cst_2 : FVec F S_ .f32 := constant S_ .f32 0x7F800000#32
  let main_v10 : FVec F S19 .f32 := broadcastInDim S19 ![] bcast_S_S19 main_cst_2
  let main_v11 : IVec S19 1 := cmpf .olt main_v9 main_v10
  let main_c_3 : IVec S_ 1 := constantI S_ 1 1#1
  let main_v12 : IVec S_ 1 := (fun x v => Host.reduce IntOp.andi x v reducesTo_S19_S_d0 h_S_) main_v11 main_c_3
  let main_v13 : IVec S_ 1 := andi main_v8 main_v12
  let main_v14 : FVec F S19 .f32 := Host.absf main_arg3
  let main_cst_4 : FVec F S_ .f32 := constant S_ .f32 0x7F800000#32
  let main_v15 : FVec F S19 .f32 := broadcastInDim S19 ![] bcast_S_S19 main_cst_4
  let main_v16 : IVec S19 1 := cmpf .olt main_v14 main_v15
  fn_part1 (F := F) main_v13 main_v16
-- ==== Kernel.lean ====
abbrev S4x256x128x256 : Shape := ⟨4, ![4, 256, 128, 256]⟩
abbrev S19x10x256 : Shape := ⟨3, ![19, 10, 256]⟩
abbrev S19 : Shape := ⟨1, ![19]⟩
abbrev S_ : Shape := ⟨0, ![]⟩
abbrev S19x10 : Shape := ⟨2, ![19, 10]⟩
abbrev S19x10x1 : Shape := ⟨3, ![19, 10, 1]⟩
abbrev S190x256 : Shape := ⟨2, ![190, 256]⟩
abbrev S19x1 : Shape := ⟨2, ![19, 1]⟩
abbrev S4x256x32768 : Shape := ⟨3, ![4, 256, 32768]⟩
abbrev S4x19x32768 : Shape := ⟨3, ![4, 19, 32768]⟩
abbrev S1x256x4096 : Shape := ⟨3, ![1, 256, 4096]⟩
abbrev S1x19x4096 : Shape := ⟨3, ![1, 19, 4096]⟩
abbrev S256x4096 : Shape := ⟨2, ![256, 4096]⟩
abbrev S190x4096 : Shape := ⟨2, ![190, 4096]⟩
abbrev S19x10x4096 : Shape := ⟨3, ![19, 10, 4096]⟩
abbrev S19x4096 : Shape := ⟨2, ![19, 4096]⟩
abbrev S4096 : Shape := ⟨1, ![4096]⟩
abbrev S1x4096 : Shape := ⟨2, ![1, 4096]⟩
abbrev S4x19x128x256 : Shape := ⟨4, ![4, 19, 128, 256]⟩

abbrev nBuf : Space → Nat
  | .hbm => 21
  | .vmem => 7
  | .smem => 0
  | _ => 0

abbrev bufTy : (tb : Table) → Fin (tcTables nBuf tb) → BufTy
  | .hbm, ⟨0, _⟩ => ⟨S4x256x128x256, .f32⟩
  | .hbm, ⟨1, _⟩ => ⟨S19x10x256, .f32⟩
  | .hbm, ⟨2, _⟩ => ⟨S19, .f32⟩
  | .hbm, ⟨3, _⟩ => ⟨S19, .f32⟩
  | .hbm, ⟨4, _⟩ => ⟨S19x10x256, .f32⟩
  | .hbm, ⟨5, _⟩ => ⟨S_, .f32⟩
  | .hbm, ⟨6, _⟩ => ⟨S19x10, .f32⟩
  | .hbm, ⟨7, _⟩ => ⟨S19x10x1, .f32⟩
  | .hbm, ⟨8, _⟩ => ⟨S19x10x1, .f32⟩
  | .hbm, ⟨9, _⟩ => ⟨S_, .f32⟩
  | .hbm, ⟨10, _⟩ => ⟨S19x10x1, .f32⟩
  | .hbm, ⟨11, _⟩ => ⟨S19x10x1, .f32⟩
  | .hbm, ⟨12, _⟩ => ⟨S19x10x256, .f32⟩
  | .hbm, ⟨13, _⟩ => ⟨S19x10x256, .f32⟩
  | .hbm, ⟨14, _⟩ => ⟨S190x256, .f32⟩
  | .hbm, ⟨15, _⟩ => ⟨S190x256, .bf16⟩
  | .hbm, ⟨16, _⟩ => ⟨S19x1, .f32⟩
  | .hbm, ⟨17, _⟩ => ⟨S19x1, .f32⟩
  | .hbm, ⟨18, _⟩ => ⟨S4x256x32768, .f32⟩
  | .hbm, ⟨19, _⟩ => ⟨S4x19x32768, .f32⟩
  | .hbm, ⟨20, _⟩ => ⟨S4x19x128x256, .f32⟩
  | .local _ .vmem, ⟨0, _⟩ => ⟨S1x256x4096, .f32⟩
  | .local _ .vmem, ⟨1, _⟩ => ⟨S1x256x4096, .f32⟩
  | .local _ .vmem, ⟨2, _⟩ => ⟨S190x256, .bf16⟩
  | .local _ .vmem, ⟨3, _⟩ => ⟨S19x1, .f32⟩
  | .local _ .vmem, ⟨4, _⟩ => ⟨S19x1, .f32⟩
  | .local _ .vmem, ⟨5, _⟩ => ⟨S1x19x4096, .f32⟩
  | .local _ .vmem, ⟨6, _⟩ => ⟨S1x19x4096, .f32⟩
  | _, _ => ⟨S4x256x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S190x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S19x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S19x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x19x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S19x10x256_S19x10_d2 : S19x10x256.ReducesTo [2] S19x10
  h_S_ : 0 < S_.numel
  bcast_S19x10_S19x10x1_0_1 : S19x10.BroadcastsInDim S19x10x1 (![0, 1] : Fin 2 → Fin S19x10x1.rank)
  bcast_S_S19x10x1 : S_.BroadcastsInDim S19x10x1 (![] : Fin 0 → Fin S19x10x1.rank)
  bcast_S19x10x1_S19x10x256_0_1_2 : S19x10x1.BroadcastsInDim S19x10x256 (![0, 1, 2] : Fin 3 → Fin S19x10x256.rank)
  shapeCasts_S19x10x256_S190x256 : S19x10x256.ShapeCasts S190x256
  bitsLt_bf16_f32 : FTy.bits .bf16 < FTy.bits .f32
  shapeCasts_S19_S19x1 : S19.ShapeCasts S19x1
  shapeCasts_S4x256x128x256_S4x256x32768 : S4x256x128x256.ShapeCasts S4x256x32768
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S190x256_S190x256_0_0 : ∀ a, (![0, 0] : Fin 2 → Nat) a + S190x256.size a ≤ S190x256.size a
  h_S190x256 : 0 < S190x256.numel
  shapeCasts_S190x256_S190x256 : S190x256.ShapeCasts S190x256
  shapeCasts_S190x4096_S19x10x4096 : S190x4096.ShapeCasts S19x10x4096
  reduces_S19x10x4096_S19x4096 : S19x10x4096.Reduces [1] S19x4096
  reduces_S19x4096_S4096 : S19x4096.Reduces [0] S4096
  shapeCasts_S4096_S1x4096 : S4096.ShapeCasts S1x4096
  broadcasts_S1x4096_S19x4096 : S1x4096.Broadcasts S19x4096
  inb_S19x1_S19x1_0_0 : ∀ a, (![0, 0] : Fin 2 → Nat) a + S19x1.size a ≤ S19x1.size a
  h_S19x1 : 0 < S19x1.numel
  shapeCasts_S19x1_S19x1 : S19x1.ShapeCasts S19x1
  broadcasts_S19x1_S19x4096 : S19x1.Broadcasts S19x4096
  inb_S1x19x4096_S1x19x4096_0_0_0 : ∀ a, (![0, 0, 0] : Fin 3 → Nat) a + S1x19x4096.size a ≤ S1x19x4096.size a
  h_S1x19x4096 : 0 < S1x19x4096.numel
  shapeCasts_S1x19x4096_S19x4096 : S1x19x4096.ShapeCasts S19x4096
  shapeCasts_S19x4096_S1x19x4096 : S19x4096.ShapeCasts S1x19x4096
  shapeCasts_S4x19x32768_S4x19x128x256 : S4x19x32768.ShapeCasts S4x19x128x256
  dot_S190x256_S256x4096_S190x4096_1_0_0_1_n_n_wf : DotDims.WF S190x256 S256x4096 S190x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x256x32768.size a
  hwx0_0 : ∀ i : grid0.Coords, EltTy.bits .f32 = 32 ∨ (Rect.block (s := S4x256x32768) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S190x256.size a ≤ S190x256.size a
  hwx0_1 : ∀ i : grid0.Coords, EltTy.bits .bf16 = 32 ∨ (Rect.block (s := S190x256) S190x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x1.size a ≤ S19x1.size a
  hwx0_2 : ∀ i : grid0.Coords, EltTy.bits .f32 = 32 ∨ (Rect.block (s := S19x1) S19x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x1.size a ≤ S19x1.size a
  hwx0_3 : ∀ i : grid0.Coords, EltTy.bits .f32 = 32 ∨ (Rect.block (s := S19x1) S19x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x4096.size a ≤ S4x19x32768.size a
  hwx0_4 : ∀ i : grid0.Coords, EltTy.bits .f32 = 32 ∨ (Rect.block (s := S4x19x32768) S1x19x4096.size (cc0_transform_4 i) (hinb0_4 i)).WholeWords (EltTy.packing .f32)

variable [Facts₀]

def dot_S190x256_S256x4096_S190x4096_1_0_0_1_n_n : DotDims S190x256 S256x4096 S190x4096 where
  lhsContracting := [1]
  rhsContracting := [0]
  lhsNonContracting := [0]
  rhsNonContracting := [1]
  lhsBatch := []
  rhsBatch := []
  wf := dot_S190x256_S256x4096_S190x4096_1_0_0_1_n_n_wf

abbrev win0_0 : Pipeline.Window sig grid0 :=
  Pipeline.Window.ofSpec (Memref.whole main_v9) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S190x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S19x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S19x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x19x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x128x256 : Shape := ⟨4, ![4, 256, 128, 256]⟩
abbrev S19x10x256 : Shape := ⟨3, ![19, 10, 256]⟩
abbrev S19 : Shape := ⟨1, ![19]⟩
abbrev S_ : Shape := ⟨0, ![]⟩
abbrev S19x10 : Shape := ⟨2, ![19, 10]⟩
abbrev S19x10x1 : Shape := ⟨3, ![19, 10, 1]⟩
abbrev S4x128x256x256 : Shape := ⟨4, ![4, 128, 256, 256]⟩
abbrev S131072x256 : Shape := ⟨2, ![131072, 256]⟩
abbrev S131072x19x10 : Shape := ⟨3, ![131072, 19, 10]⟩
abbrev S131072x19 : Shape := ⟨2, ![131072, 19]⟩
abbrev S131072 : Shape := ⟨1, ![131072]⟩
abbrev S131072x1 : Shape := ⟨2, ![131072, 1]⟩
abbrev S1x19 : Shape := ⟨2, ![1, 19]⟩
abbrev S4x128x256x19 : Shape := ⟨4, ![4, 128, 256, 19]⟩
abbrev S4x19x128x256 : Shape := ⟨4, ![4, 19, 128, 256]⟩

abbrev nBuf : Space → Nat
  | .hbm => 65
  | .vmem => 0
  | .smem => 0
  | _ => 0

abbrev bufTy : (tb : Table) → Fin (tcTables nBuf tb) → BufTy
  | .hbm, ⟨0, _⟩ => ⟨S4x256x128x256, .f32⟩
  | .hbm, ⟨1, _⟩ => ⟨S19x10x256, .f32⟩
  | .hbm, ⟨2, _⟩ => ⟨S19, .f32⟩
  | .hbm, ⟨3, _⟩ => ⟨S19, .f32⟩
  | .hbm, ⟨4, _⟩ => ⟨S19x10x256, .f32⟩
  | .hbm, ⟨5, _⟩ => ⟨S_, .f32⟩
  | .hbm, ⟨6, _⟩ => ⟨S19x10, .f32⟩
  | .hbm, ⟨7, _⟩ => ⟨S19x10x1, .f32⟩
  | .hbm, ⟨8, _⟩ => ⟨S19x10x1, .f32⟩
  | .hbm, ⟨9, _⟩ => ⟨S_, .f32⟩
  | .hbm, ⟨10, _⟩ => ⟨S19x10x1, .f32⟩
  | .hbm, ⟨11, _⟩ => ⟨S19x10x1, .f32⟩
  | .hbm, ⟨12, _⟩ => ⟨S19x10x256, .f32⟩
  | .hbm, ⟨13, _⟩ => ⟨S19x10x256, .f32⟩
  | .hbm, ⟨14, _⟩ => ⟨S4x128x256x256, .f32⟩
  | .hbm, ⟨15, _⟩ => ⟨S131072x256, .f32⟩
  | .hbm, ⟨16, _⟩ => ⟨S131072x19x10, .f32⟩
  | .hbm, ⟨17, _⟩ => ⟨S_, .f32⟩
  | .hbm, ⟨18, _⟩ => ⟨S131072x19, .f32⟩
  | .hbm, ⟨19, _⟩ => ⟨S_, .f32⟩
  | .hbm, ⟨20, _⟩ => ⟨S131072, .f32⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S_, .i32⟩
  | .hbm, ⟨26, _⟩ => ⟨S_, .f32⟩
  | .hbm, ⟨27, _⟩ => ⟨S131072, .f32⟩
  | .hbm, ⟨28, _⟩ => ⟨S131072x1, .f32⟩
  | .hbm, ⟨29, _⟩ => ⟨S_, .f32⟩
  | .hbm, ⟨30, _⟩ => ⟨S131072x1, .f32⟩
  | .hbm, ⟨31, _⟩ => ⟨S131072x1, .f32⟩
  | .hbm, ⟨32, _⟩ => ⟨S131072x19, .f32⟩
  | .hbm, ⟨33, _⟩ => ⟨S131072x19, .f32⟩
  | .hbm, ⟨34, _⟩ => ⟨S131072x19, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S131072, .f32⟩
  | .hbm, ⟨40, _⟩ => ⟨S131072x1, .f32⟩
  | .hbm, ⟨41, _⟩ => ⟨S131072x1, .f32⟩
  | .hbm, ⟨42, _⟩ => ⟨S131072x1, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S131072x1, .f32⟩
  | .hbm, ⟨48, _⟩ => ⟨S131072x1, .f32⟩
  | .hbm, ⟨49, _⟩ => ⟨S131072x19, .f32⟩
  | .hbm, ⟨50, _⟩ => ⟨S131072x19, .f32⟩
  | .hbm, ⟨51, _⟩ => ⟨S_, .f32⟩
  | .hbm, ⟨52, _⟩ => ⟨S131072x1, .f32⟩
  | .hbm, ⟨53, _⟩ => ⟨S131072x1, .f32⟩
  | .hbm, ⟨54, _⟩ => ⟨S131072x1, .f32⟩
  | .hbm, ⟨55, _⟩ => ⟨S131072x19, .f32⟩
  | .hbm, ⟨56, _⟩ => ⟨S131072x19, .f32⟩
  | .hbm, ⟨57, _⟩ => ⟨S1x19, .f32⟩
  | .hbm, ⟨58, _⟩ => ⟨S131072x19, .f32⟩
  | .hbm, ⟨59, _⟩ => ⟨S131072x19, .f32⟩
  | .hbm, ⟨60, _⟩ => ⟨S1x19, .f32⟩
  | .hbm, ⟨61, _⟩ => ⟨S131072x19, .f32⟩
  | .hbm, ⟨62, _⟩ => ⟨S131072x19, .f32⟩
  | .hbm, ⟨63, _⟩ => ⟨S4x128x256x19, .f32⟩
  | .hbm, ⟨64, _⟩ => ⟨S4x19x128x256, .f32⟩
  | _, _ => ⟨S4x256x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_cst_3 : Ref sig .tc := ⟨.hbm, 43, rfl⟩
abbrev main_call1_v13 : Ref sig .tc := ⟨.hbm, 44, rfl⟩
abbrev main_call1_cst_4 : Ref sig .tc := ⟨.hbm, 45, rfl⟩
abbrev main_call1_call0_v0 : Ref sig .tc := ⟨.hbm, 46, rfl⟩
abbrev main_call1_call0_v1 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]

class Facts₀ : Prop where
  reducesTo_S19x10x256_S19x10_d2 : S19x10x256.ReducesTo [2] S19x10
  h_S_ : 0 < S_.numel
  bcast_S19x10_S19x10x1_0_1 : S19x10.BroadcastsInDim S19x10x1 (![0, 1] : Fin 2 → Fin S19x10x1.rank)
  bcast_S_S19x10x1 : S_.BroadcastsInDim S19x10x1 (![] : Fin 0 → Fin S19x10x1.rank)
  bcast_S19x10x1_S19x10x256_0_1_2 : S19x10x1.BroadcastsInDim S19x10x256 (![0, 1, 2] : Fin 3 → Fin S19x10x256.rank)
  transposes_S4x256x128x256_S4x128x256x256_0_2_3_1 : S4x256x128x256.Transposes [0, 2, 3, 1] S4x128x256x256
  shapeCasts_S4x128x256x256_S131072x256 : S4x128x256x256.ShapeCasts S131072x256
  reducesTo_S131072x19x10_S131072x19_d2 : S131072x19x10.ReducesTo [2] S131072x19
  reducesTo_S131072x19_S131072_d1 : S131072x19.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x19_0_1 : S131072x1.BroadcastsInDim S131072x19 (![0, 1] : Fin 2 → Fin S131072x19.rank)
  bcast_S19_S1x19_1 : S19.BroadcastsInDim S1x19 (![1] : Fin 1 → Fin S1x19.rank)
  bcast_S1x19_S131072x19_0_1 : S1x19.BroadcastsInDim S131072x19 (![0, 1] : Fin 2 → Fin S131072x19.rank)
  shapeCasts_S131072x19_S4x128x256x19 : S131072x19.ShapeCasts S4x128x256x19
  transposes_S4x128x256x19_S4x19x128x256_0_3_1_2 : S4x128x256x19.Transposes [0, 3, 1, 2] S4x19x128x256
  dot_S131072x256_S19x10x256_S131072x19x10_1_2_0_01_n_n_wf : DotDims.WF S131072x256 S19x10x256 S131072x19x10 [1] [2] [0] [0, 1] [] []

variable [Facts₀]

def dot_S131072x256_S19x10x256_S131072x19x10_1_2_0_01_n_n : DotDims S131072x256 S19x10x256 S131072x19x10 where
  lhsContracting := [1]
  rhsContracting := [2]
  lhsNonContracting := [0]
  rhsNonContracting := [0, 1]
  lhsBatch := []
  rhsBatch := []
  wf := dot_S131072x256_S19x10x256_S131072x19x10_1_2_0_01_n_n_wf

class Facts : Prop extends Facts₀ where

variable [Facts]
-- ==== Proof.Spec.lean ====
/-
  The function both programs compute, at one pixel.

  A pixel carries 190 similarities `sim k j` (class `k` of 19, prototype `j` of 10): the inner product, over the
  256 channels, of the pixel's feature vector with a normalised prototype. The class score is the largest of a
  class's ten similarities. The nineteen scores are then layer-normalised: with `μ` their mean and `σ²` the mean
  of the squared deviations, class `k` gets `(score k - μ) · (σ² + ε)^(-1/2) · scale k + shift k`.
  Everything is on the extended reals; the three float literals (`-∞`, `19`, `ε`) are kept as the patterns the
  programs print, since both sides print the same ones.
-/
import Idealize.ShloMosaic.PureOps.Ideal
import Idealize.ShloMosaic.PureOps.Ideal.Laws
import Idealize.ShloMosaic.Lib.ValueIdx

noncomputable section

namespace Cert.LayerNormProto

open Idealize.ShloMosaic

/-- The start of every maximum: the pattern of `-∞`. -/
abbrev negInf : EReal := Ideal.ofBits .f32 0xFF800000#32
/-- The number of classes, as the programs print it. -/
abbrev nineteen : EReal := Ideal.ofBits .f32 0x41980000#32
/-- The layer norm's `ε`, as the programs print it. -/
abbrev eps : EReal := Ideal.ofBits .f32 0x3727C5AC#32

/-- Row `10 k + j` of the 190-row prototype matrix holds prototype `j` of class `k`. -/
def row (k : Fin 19) (j : Fin 10) : Fin 190 := ⟨k.val * 10 + j.val, by have := k.isLt; have := j.isLt; omega⟩

/-- A class's score: the largest of its ten similarities. -/
def classScore (sim : Fin 19 → Fin 10 → EReal) (k : Fin 19) : EReal :=
  (Finset.univ : Finset (Fin 10)).fold max negInf (sim k)

/-- The mean of the nineteen scores. -/
def mean (seg : Fin 19 → EReal) : EReal := Ideal.div (∑ j : Fin 19, seg j) nineteen

/-- The mean of the squared deviations from the mean. -/
def variance (seg : Fin 19 → EReal) : EReal :=
  Ideal.div (∑ j : Fin 19, (seg j - mean seg) * (seg j - mean seg)) nineteen

/-- The layer-normalised, scaled and shifted score of class `k`. -/
def layerNorm (seg w b : Fin 19 → EReal) (k : Fin 19) : EReal :=
  (seg k - mean seg) * Ideal.rsqrt (variance seg + eps) * w k + b k

/-- A pixel's result for class `k` from its 190 similarities. -/
def pixelOut (sim : Fin 19 → Fin 10 → EReal) (w b : Fin 19 → EReal) (k : Fin 19) : EReal :=
  layerNorm (classScore sim) w b k

end Cert.LayerNormProto

end
-- ==== Proof.Layout.lean ====
/-
  Two layout operations read at an index written by coordinates.

  A 190-row matrix regrouped as 19 groups of 10 rows reads, at (group k, member j, column s), row 10 k + j;
  a one-column matrix broadcast along its rows reads, at (row p, column c), the column's entry of row p.
-/
import Idealize.ShloMosaic.Lib.Pipeline.Value
import Idealize.ShloMosaic.Lib.ValueIdx
import Idealize.ShloMosaic.Lib.ValueLayout

noncomputable section

namespace Cert.LayerNormProto.Layout

open Idealize.ShloMosaic Idealize.ShloMosaic.ValueIdx

variable {α : Type}

/-- Rows regrouped ten by ten: entry (k, j, s) of the regrouped array is entry (10 k + j, s) of the matrix. -/
theorem shapeCast_rows_grouped {n : ℕ} (x : (⟨2, ![190, n]⟩ : Shape).Idx → α)
    (h : (⟨2, ![190, n]⟩ : Shape).ShapeCasts ⟨3, ![19, 10, n]⟩) (k : Fin 19) (j : Fin 10) (s : Fin n)
    (r : Fin 190) (hr : r.val = k.val * 10 + j.val) :
    shapeCast ⟨3, ![19, 10, n]⟩ x h (ix3 k j s) = x (ix2 r s) :=
  shapeCast_apply x h _ _ (by
    rw [Shape.rowMajor_val_three, Shape.rowMajor_val_two]
    show r.val * n + s.val = (k.val * 10 + j.val) * n + s.val
    rw [hr])

/-- A column broadcast along the rows: entry (p, c) is the column's entry at row p. -/
theorem broadcastTo_column {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LayerNormProto.Layout

end
-- ==== Proof.Payload.lean ====
/-
  The kernel body's stored value at an index.

  The body is cut where its mathematics cuts: the block of similarities (a 190 x 256 by 256 x 4096 product), the
  class scores (a maximum over each class's ten rows), and the layer norm over the nineteen scores of a column.
  Each part is read at an index written by coordinates; together the stored block at (class k, pixel s) is the
  pixel's result `pixelOut` from the similarities `∑ c, prototype row (10 k' + j) at c · feature c of pixel s`.
-/
import proofs.«156458_j47399259078720_2_alg».proof.Proof.Gen.KernelIdeal.Skeleton
import proofs.«156458_j47399259078720_2_alg».proof.Proof.Spec
import proofs.«156458_j47399259078720_2_alg».proof.Proof.Layout
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx Cert.LayerNormProto

/-- The similarities of one block: prototype matrix times the block's feature matrix. -/
def simBlock (x0 : FVec Ideal S1x256x4096 .f32) (x1 : FVec Ideal S190x256 .bf16) : FVec Ideal S190x4096 .f32 :=
  matmul dot_S190x256_S256x4096_S190x4096_1_0_0_1_n_n none (shapeCast S190x256 x1 shapeCasts_S190x256_S190x256)
    (truncf .bf16 (shapeCast S256x4096 x0 shapeCasts_S1x256x4096_S256x4096) bitsLt_bf16_f32)
    (constant S190x4096 .f32 0x00000000#32)

/-- The class scores of one block: the maximum over each class's ten rows. -/
def segBlock (v5 : FVec Ideal S190x4096 .f32) : FVec Ideal S19x4096 .f32 :=
  multiReduction .maximumf [1] S19x4096 (shapeCast S19x10x4096 v5 shapeCasts_S190x4096_S19x10x4096) 0xFF800000#32
    reduces_S19x10x4096_S19x4096 (.inl rfl) rfl

/-- The sum down each column of a 19-row block. -/
def colSum (y : FVec Ideal S19x4096 .f32) : FVec Ideal S4096 .f32 :=
  multiReduction .add [0] S4096 y 0x00000000#32 reduces_S19x4096_S4096 (.inl rfl) rfl

/-- Each column's sum divided by nineteen, as one row. -/
def rowOver19 (y : FVec Ideal S19x4096 .f32) : FVec Ideal S1x4096 .f32 :=
  divf (shapeCast S1x4096 (colSum y) shapeCasts_S4096_S1x4096) (broadcast S1x4096 (Scalar.ofBits .f32 0x41980000#32))

/-- The scores less their column's mean. -/
def centred (v7 : FVec Ideal S19x4096 .f32) : FVec Ideal S19x4096 .f32 :=
  subf v7 (broadcastTo S19x4096 (rowOver19 v7) broadcasts_S1x4096_S19x4096)

/-- Each column's (variance + ε)^(-1/2), as one row. -/
def invStd (v7 : FVec Ideal S19x4096 .f32) : FVec Ideal S1x4096 .f32 :=
  rsqrt (addf (rowOver19 (mulf (centred v7) (centred v7))) (broadcast S1x4096 (Scalar.ofBits .f32 0x3727C5AC#32)))

/-- The layer norm of one block's class scores, scaled and shifted, as the body computes it. -/
def normBlock (v7 : FVec Ideal S19x4096 .f32) (v26 v30 : FVec Ideal S19x1 .f32) : FVec Ideal S1x19x4096 .f32 :=
  shapeCast S1x19x4096
    (addf (mulf (mulf (centred v7) (broadcastTo S19x4096 (invStd v7) broadcasts_S1x4096_S19x4096))
        (broadcastTo S19x4096 (shapeCast S19x1 v26 shapeCasts_S19x1_S19x1) broadcasts_S19x1_S19x4096))
      (broadcastTo S19x4096 (shapeCast S19x1 v30 shapeCasts_S19x1_S19x1) broadcasts_S19x1_S19x4096))
    shapeCasts_S19x4096_S1x19x4096

/-- The body's stored value is the three parts composed. -/
theorem payload_eq (x0 : FVec Ideal S1x256x4096 .f32) (x1 : FVec Ideal S190x256 .bf16) (x2 x3 : FVec Ideal S19x1 .f32) :
    k0_pay1 x0 x1 x2 x3 = normBlock (segBlock (simBlock x0 x1)) x2 x3 := rfl

/-- A similarity: row `r` of the prototype matrix against column `s` of the block's features. -/
theorem simBlock_apply (x0 : FVec Ideal S1x256x4096 .f32) (x1 : FVec Ideal S190x256 .bf16) (r : Fin 190) (s : Fin 4096) :
    simBlock x0 x1 (ix2 r s) = ∑ c : Fin 256, x1 (ix2 r c) * x0 (ix3 (0 : Fin 1) c s) := by
  unfold simBlock
  refine (Ideal.matmul_constant_zero_apply dot_S190x256_S256x4096_S190x4096_1_0_0_1_n_n none _ _ (ix2 r s)).trans ?_
  rw [← Equiv.sum_comp (contrEquiv1 dot_S190x256_S256x4096_S190x4096_1_0_0_1_n_n 256 rfl rfl).symm]
  refine Finset.sum_congr rfl fun c _ => ?_
  have c2 := contrEquiv1_symm_val dot_S190x256_S256x4096_S190x4096_1_0_0_1_n_n 256 rfl rfl c
  have l2 : dot_S190x256_S256x4096_S190x4096_1_0_0_1_n_n.lhsIdx (ix2 r s)
      ((contrEquiv1 dot_S190x256_S256x4096_S190x4096_1_0_0_1_n_n 256 rfl rfl).symm c) = ix2 r c := by
    funext ax; apply Fin.ext
    match ax with
    | ⟨0, _⟩ => simp [DotDims.lhsIdx, dot_S190x256_S256x4096_S190x4096_1_0_0_1_n_n]; rfl
    | ⟨1, _⟩ => simp [DotDims.lhsIdx, dot_S190x256_S256x4096_S190x4096_1_0_0_1_n_n]; exact c2
  have r2 : dot_S190x256_S256x4096_S190x4096_1_0_0_1_n_n.rhsIdx (ix2 r s)
      ((contrEquiv1 dot_S190x256_S256x4096_S190x4096_1_0_0_1_n_n 256 rfl rfl).symm c) = ix2 c s := by
    funext ax; apply Fin.ext
    match ax with
    | ⟨0, _⟩ => simp [DotDims.rhsIdx, dot_S190x256_S256x4096_S190x4096_1_0_0_1_n_n]; exact c2
    | ⟨1, _⟩ => simp [DotDims.rhsIdx, dot_S190x256_S256x4096_S190x4096_1_0_0_1_n_n]; rfl
  rw [l2, r2, shapeCast_self]
  exact congrArg (x1 (ix2 r c) * ·) (shapeCast_1ab_ab_apply x0 shapeCasts_S1x256x4096_S256x4096 c s)

/-- A class score: the largest of the class's ten rows at the column. -/
theorem segBlock_apply (v5 : FVec Ideal S190x4096 .f32) (k : Fin 19) (s : Fin 4096) :
    segBlock v5 (ix2 k s) = (Finset.univ : Finset (Fin 10)).fold max negInf (fun j => v5 (ix2 (row k j) s)) := by
  unfold segBlock
  refine (Ideal.multiReduction_maximumf_single (shapeCast S19x10x4096 v5 shapeCasts_S190x4096_S19x10x4096) 0xFF800000#32
    reduces_S19x10x4096_S19x4096 (.inl rfl) rfl (ix2 k s)).trans ?_
  show (Finset.univ : Finset (Fin 10)).fold max negInf _ = _
  refine congrArg (fun f => Finset.fold max negInf f (Finset.univ : Finset (Fin 10))) (funext fun j => ?_)
  have hl : reduces_S19x10x4096_S19x4096.lift (ix2 k s) j = ix3 k j s := by
    funext ax; apply Fin.ext
    match ax with
    | ⟨0, _⟩ => rfl
    | ⟨1, _⟩ => rfl
    | ⟨2, _⟩ => rfl
  show shapeCast S19x10x4096 v5 shapeCasts_S190x4096_S19x10x4096 (reduces_S19x10x4096_S19x4096.lift (ix2 k s) j) = _
  rw [hl]
  exact Layout.shapeCast_rows_grouped v5 shapeCasts_S190x4096_S19x10x4096 k j s (row k j) rfl

/-- A column's sum is the sum over the nineteen rows. -/
theorem colSum_apply (y : FVec Ideal S19x4096 .f32) (s : Fin 4096) :
    colSum y (ix1 s) = ∑ j : Fin 19, y (ix2 j s) := by
  unfold colSum
  refine (Ideal.multiReduction_add_single y 0x00000000#32 reduces_S19x4096_S4096 (.inl rfl) rfl (ix1 s)).trans ?_
  show (∑ j : Fin 19, y (reduces_S19x4096_S4096.lift (ix1 s) j)) = _
  refine Finset.sum_congr rfl fun j _ => congrArg y ?_
  funext ax; apply Fin.ext
  match ax with
  | ⟨0, _⟩ => rfl
  | ⟨1, _⟩ => rfl

/-- The row of column sums over nineteen, at a column. -/
theorem rowOver19_apply (y : FVec Ideal S19x4096 .f32) (u : Fin 1) (s : Fin 4096) :
    rowOver19 y (ix2 u s) = Ideal.div (∑ j : Fin 19, y (ix2 j s)) nineteen := by
  show Ideal.div (shapeCast S1x4096 (colSum y) shapeCasts_S4096_S1x4096 (ix2 u s)) (Ideal.ofBits .f32 0x41980000#32) = _
  rw [shapeCast_a_1a_apply (colSum y) shapeCasts_S4096_S1x4096 u s, colSum_apply]

/-- A centred score. -/
theorem centred_apply (v7 : FVec Ideal S19x4096 .f32) (k : Fin 19) (s : Fin 4096) :
    centred v7 (ix2 k s) = v7 (ix2 k s) - mean (fun k' => v7 (ix2 k' s)) := by
  show v7 (ix2 k s) - broadcastTo S19x4096 (rowOver19 v7) broadcasts_S1x4096_S19x4096 (ix2 k s) = _
  rw [broadcastTo_1b_ab_apply (rowOver19 v7) broadcasts_S1x4096_S19x4096 k s, rowOver19_apply]
  rfl

/-- A column's inverse deviation. -/
theorem invStd_apply (v7 : FVec Ideal S19x4096 .f32) (u : Fin 1) (s : Fin 4096) :
    invStd v7 (ix2 u s) = Ideal.rsqrt (variance (fun k' => v7 (ix2 k' s)) + eps) := by
  show Ideal.rsqrt (rowOver19 (mulf (centred v7) (centred v7)) (ix2 u s) + Ideal.ofBits .f32 0x3727C5AC#32) = _
  rw [rowOver19_apply]
  have hs : (∑ j : Fin 19, mulf (centred v7) (centred v7) (ix2 j s))
      = ∑ j : Fin 19, ((fun k' => v7 (ix2 k' s)) j - mean (fun k' => v7 (ix2 k' s))) * ((fun k' => v7 (ix2 k' s)) j - mean (fun k' => v7 (ix2 k' s))) :=
    Finset.sum_congr rfl fun j _ => by
      show centred v7 (ix2 j s) * centred v7 (ix2 j s) = _
      rw [centred_apply]
  rw [hs]
  rfl

/-- The stored block at (class k, column s): the layer norm of the column's nineteen scores. -/
theorem normBlock_apply (v7 : FVec Ideal S19x4096 .f32) (v26 v30 : FVec Ideal S19x1 .f32) (u : Fin 1) (k : Fin 19) (s : Fin 4096) :
    normBlock v7 v26 v30 (ix3 u k s)
      = layerNorm (fun k' => v7 (ix2 k' s)) (fun k' => v26 (ix2 k' (0 : Fin 1))) (fun k' => v30 (ix2 k' (0 : Fin 1))) k := by
  unfold normBlock
  rw [shapeCast_ab_1ab_apply _ shapeCasts_S19x4096_S1x19x4096 u k s]
  show centred v7 (ix2 k s) * broadcastTo S19x4096 (invStd v7) broadcasts_S1x4096_S19x4096 (ix2 k s)
        * broadcastTo S19x4096 (shapeCast S19x1 v26 shapeCasts_S19x1_S19x1) broadcasts_S19x1_S19x4096 (ix2 k s)
      + broadcastTo S19x4096 (shapeCast S19x1 v30 shapeCasts_S19x1_S19x1) broadcasts_S19x1_S19x4096 (ix2 k s) = _
  rw [broadcastTo_1b_ab_apply (invStd v7) broadcasts_S1x4096_S19x4096 k s, invStd_apply, centred_apply,
    shapeCast_self, shapeCast_self,
    Layout.broadcastTo_column v26 broadcasts_S19x1_S19x4096 k s, Layout.broadcastTo_column v30 broadcasts_S19x1_S19x4096 k s]
  rfl

/-- THE BODY AT AN INDEX: what a point stores at (class k, column s) is the pixel's result from the similarities of
    the prototype rows with the block's column s, and the scale and shift columns. -/
theorem payload_apply (x0 : FVec Ideal S1x256x4096 .f32) (x1 : FVec Ideal S190x256 .bf16) (x2 x3 : FVec Ideal S19x1 .f32)
    (u : Fin 1) (k : Fin 19) (s : Fin 4096) :
    k0_pay1 (F := Ideal) x0 x1 x2 x3 (ix3 u k s)
      = pixelOut (fun k' j => ∑ c : Fin 256, x1 (ix2 (row k' j) c) * x0 (ix3 (0 : Fin 1) c s))
          (fun k' => x2 (ix2 k' (0 : Fin 1))) (fun k' => x3 (ix2 k' (0 : Fin 1))) k := by
  rw [payload_eq, normBlock_apply]
  unfold pixelOut
  refine congrArg (fun seg => layerNorm seg _ _ k) (funext fun k' => ?_)
  rw [segBlock_apply]
  unfold classScore
  refine congrArg (fun f => Finset.fold max negInf f (Finset.univ : Finset (Fin 10))) (funext fun j => ?_)
  exact simBlock_apply x0 x1 (row k' j) s

end Cert.KernelIdeal.Body

end
-- ==== Proof.RegionValue.lean ====
/-
  The region's output array as one function of its input arrays.

  The grid has 4 x 8 points; point (n, q) works on image n and on the q-th run of 4096 consecutive pixels. Its
  feature block is rows (n, all 256 channels, pixels 4096 q .. 4096 q + 4095) of the image array; the prototype
  matrix and the scale and shift columns are read whole at every point; and it writes rows (n, all 19 classes,
  the same pixels) of the output. At (class k, pixel s) of its block a point stores the pixel's result, so the
  blocks are the restrictions of ONE whole-array function, `regionOut`, and since the 32 blocks tile the output
  array, the array ends holding that function.
-/
import proofs.«156458_j47399259078720_2_alg».proof.Proof.Gen.KernelIdeal.Frame
import proofs.«156458_j47399259078720_2_alg».proof.Proof.Payload
import Idealize.ShloMosaic.Lib.Pipeline.Value
import Idealize.ShloMosaic.PureOps.Ideal

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Cert.LayerNormProto
open Idealize.ShloMosaic.Pipeline (Dat)

variable (m : (ℓ : Loc nD τ sig) → Buf (Elt Ideal) ℓ)

/-- The region's result at (image n, class k, pixel p), from the image array `X`, the prototype matrix `Pm` and the
    scale and shift columns. -/
def outAt (X : S4x256x32768.Idx → EReal) (Pm : S190x256.Idx → EReal) (W B : S19x1.Idx → EReal)
    (n : Fin 4) (k : Fin 19) (p : Fin 32768) : EReal :=
  pixelOut (fun k' j => ∑ c : Fin 256, Pm (ix2 (row k' j) c) * X (ix3 n c p))
    (fun k' => W (ix2 k' (0 : Fin 1))) (fun k' => B (ix2 k' (0 : Fin 1))) k

/-- The region's output array. -/
def regionOut (X : S4x256x32768.Idx → EReal) (Pm : S190x256.Idx → EReal) (W B : S19x1.Idx → EReal) :
    S4x19x32768.Idx → EReal :=
  fun i => outAt X Pm W B (i 0) (i 1) (i 2)

/-- What a point stores, when its four blocks are the stated parts of the arrays: the region's result at image `n`
    and pixel `4096 q + ` the block's pixel. -/
theorem stored_at (X : S4x256x32768.Idx → EReal) (Pm : S190x256.Idx → EReal) (W B : S19x1.Idx → EReal)
    (x0 : FVec Ideal S1x256x4096 .f32) (x1 : FVec Ideal S190x256 .bf16) (x2 x3 : FVec Ideal S19x1 .f32)
    (n : Fin 4) (p : Fin 32768) (y : S1x19x4096.Idx)
    (h0 : ∀ c : Fin 256, x0 (ix3 (0 : Fin 1) c (y 2)) = X (ix3 n c p))
    (h1 : ∀ (r : Fin 190) (c : Fin 256), x1 (ix2 r c) = Pm (ix2 r c))
    (h2 : ∀ k' : Fin 19, x2 (ix2 k' (0 : Fin 1)) = W (ix2 k' (0 : Fin 1)))
    (h3 : ∀ k' : Fin 19, x3 (ix2 k' (0 : Fin 1)) = B (ix2 k' (0 : Fin 1))) :
    k0_pay1 (F := Ideal) x0 x1 x2 x3 y = outAt X Pm W B n (y 1) p := by
  obtain ⟨u, k, s, rfl⟩ : ∃ (u : Fin 1) (k : Fin 19) (s : Fin 4096), y = ix3 u k s := ⟨y 0, y 1, y 2, eq_ix3 y⟩
  rw [Body.payload_apply]
  unfold outAt
  have h0' : ∀ c : Fin 256, x0 (ix3 (0 : Fin 1) c s) = X (ix3 n c p) := h0
  simp only [h0', h1, h2, h3]

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 points: the feature window moves with the output window on the
    image and pixel axes, the other three windows stay at block 0, and the output's block indices are in range. -/
theorem idx_facts : ∀ t : Fin cfg0.N,
    win0_0.index t (0 : Fin 3) = win0_4.index t (0 : Fin 3) ∧ win0_0.index t (1 : Fin 3) = 0
    ∧ win0_0.index t (2 : Fin 3) = win0_4.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) = 0 ∧ win0_4.index t (2 : Fin 3) < 8 :=
  (by decide +kernel : ∀ t : Fin grid0.N, _)

/-- Every (image, pixel-run) pair is some point's block. -/
theorem idx_onto : ∀ (q0 : Fin 4) (q2 : Fin 8), ∃ t : Fin cfg0.N, win0_4.index t = ![q0.val, 0, q2.val] :=
  (by decide +kernel : ∀ (q0 : Fin 4) (q2 : Fin 8), ∃ t : Fin grid0.N, win0_4.index t = ![q0.val, 0, q2.val])

/-- WHAT POINT `t` WRITES BACK is block `t` of `regionOut` of the arrays as the region finds them. -/
theorem flushed_eq (c : Dev nD) (t : Fin cfg0.N) :
    (dats m 0 c).flushed 4 t
      = ((cfg0.win 4).blk t).view.read (Elt Ideal)
          (regionOut (V m c main_v9) (V m c main_v6) (V m c main_v7) (V m c main_v8)) := by
  show (cfg0.win 4).cut (grid0.coords t) ((dats m 0 c).after 4 t) = _
  rw [after0_4]
  unfold out0_4
  rw [View.canon_unit_zero hz3]
  simp only [View.ld_unit_zero (S := S1x256x4096) hz3, View.ld_unit_zero (S := S190x256) hz2,
    View.ld_unit_zero (S := S19x1) hz2]
  obtain ⟨e00, e01, e02, e10, e11, e20, e21, e30, e31, b0, b1, b2⟩ := idx_facts t
  funext y
  have hy2 : ((cfg0.win 4).xinj (grid0.coords t) y (2 : Fin 3)).val < 4096 := ((cfg0.win 4).xinj (grid0.coords t) y (2 : Fin 3)).isLt
  show k0_pay1 (F := Ideal) (iblk m c 0 t) (iblk m c 1 t) (iblk m c 2 t) (iblk m c 3 t) ((cfg0.win 4).xinj (grid0.coords t) y) = _
  refine (stored_at (V m c main_v9) (V m c main_v6) (V m c main_v7) (V m c main_v8)
    (iblk m c 0 t) (iblk m c 1 t) (iblk m c 2 t) (iblk m c 3 t)
    ⟨win0_4.index t (0 : Fin 3), b0⟩
    ⟨win0_4.index t (2 : Fin 3) * 4096 + ((cfg0.win 4).xinj (grid0.coords t) y (2 : Fin 3)).val, by omega⟩
    ((cfg0.win 4).xinj (grid0.coords t) y) ?_ ?_ ?_ ?_).trans ?_
  · -- the feature block is rows (n, ·, 4096 q ..) of the image array
    intro c'
    unfold iblk
    rw [View.read_apply]
    show V m c main_v9 _ = V m c main_v9 _
    refine congrArg (V m c main_v9 : S4x256x32768.Idx → EReal) ?_
    funext a; apply Fin.ext
    match a with
    | ⟨0, _⟩ => show win0_0.index t (0 : Fin 3) * 1 + 1 * 0 = win0_4.index t (0 : Fin 3); omega
    | ⟨1, _⟩ => show win0_0.index t (1 : Fin 3) * 256 + 1 * c'.val = c'.val; omega
    | ⟨2, _⟩ =>
      show win0_0.index t (2 : Fin 3) * 4096 + 1 * ((cfg0.win 4).xinj (grid0.coords t) y (2 : Fin 3)).val
        = win0_4.index t (2 : Fin 3) * 4096 + ((cfg0.win 4).xinj (grid0.coords t) y (2 : Fin 3)).val
      omega
  · -- the prototype matrix is read whole
    intro r c'
    unfold iblk
    rw [View.read_apply]
    show V m c main_v6 _ = V m c main_v6 _
    refine congrArg (V m c main_v6 : S190x256.Idx → EReal) ?_
    funext a; apply Fin.ext
    match a with
    | ⟨0, _⟩ => show win0_1.index t (0 : Fin 2) * 190 + 1 * r.val = r.val; omega
    | ⟨1, _⟩ => show win0_1.index t (1 : Fin 2) * 256 + 1 * c'.val = c'.val; omega
  · -- the scale column is read whole
    intro k'
    unfold iblk
    rw [View.read_apply]
    show V m c main_v7 _ = V m c main_v7 _
    refine congrArg (V m c main_v7 : S19x1.Idx → EReal) ?_
    funext a; apply Fin.ext
    match a with
    | ⟨0, _⟩ => show win0_2.index t (0 : Fin 2) * 19 + 1 * k'.val = k'.val; omega
    | ⟨1, _⟩ => show win0_2.index t (1 : Fin 2) * 1 + 1 * 0 = 0; omega
  · -- the shift column is read whole
    intro k'
    unfold iblk
    rw [View.read_apply]
    show V m c main_v8 _ = V m c main_v8 _
    refine congrArg (V m c main_v8 : S19x1.Idx → EReal) ?_
    funext a; apply Fin.ext
    match a with
    | ⟨0, _⟩ => show win0_3.index t (0 : Fin 2) * 19 + 1 * k'.val = k'.val; omega
    | ⟨1, _⟩ => show win0_3.index t (1 : Fin 2) * 1 + 1 * 0 = 0; omega
  · -- and the output block is rows (n, ·, 4096 q ..) of the output array
    rw [View.read_apply]
    unfold regionOut
    show outAt _ _ _ _ _ _ _ = outAt _ _ _ _ (((cfg0.win 4).blk t).view.emb y (0 : Fin 3)) (((cfg0.win 4).blk t).view.emb y (1 : Fin 3)) (((cfg0.win 4).blk t).view.emb y (2 : Fin 3))
    have a0 : (⟨win0_4.index t (0 : Fin 3), b0⟩ : Fin 4) = ((cfg0.win 4).blk t).view.emb y (0 : Fin 3) := Fin.ext (by
      show win0_4.index t (0 : Fin 3) = win0_4.index t (0 : Fin 3) * 1 + 1 * (y (0 : Fin 3)).val
      have : (y (0 : Fin 3)).val < 1 := (y (0 : Fin 3)).isLt
      omega)
    have a1 : ((cfg0.win 4).xinj (grid0.coords t) y (1 : Fin 3) : Fin 19) = ((cfg0.win 4).blk t).view.emb y (1 : Fin 3) := Fin.ext (by
      show (y (1 : Fin 3)).val = win0_4.index t (1 : Fin 3) * 19 + 1 * (y (1 : Fin 3)).val
      omega)
    have a2 : (⟨win0_4.index t (2 : Fin 3) * 4096 + ((cfg0.win 4).xinj (grid0.coords t) y (2 : Fin 3)).val, by omega⟩ : Fin 32768)
        = ((cfg0.win 4).blk t).view.emb y (2 : Fin 3) := Fin.ext (by
      show win0_4.index t (2 : Fin 3) * 4096 + (y (2 : Fin 3)).val = win0_4.index t (2 : Fin 3) * 4096 + 1 * (y (2 : Fin 3)).val
      omega)
    rw [a0, a1, a2]

/-- An index of the output array is in point `t`'s block iff each coordinate is in the block's range on its axis. -/
theorem mem_blk (t : Fin cfg0.N) (i : S4x19x32768.Idx) :
    i ∈ ((cfg0.win 4).blk t).view.set ↔ ∀ a : Fin 3, win0_4.index t a * S1x19x4096.size a ≤ (i a).val
      ∧ (i a).val < win0_4.index t a * S1x19x4096.size a + S1x19x4096.size a := by
  show i ∈ ((View.whole main_v10).slice (win0_4.rect t)).set ↔ _
  rw [View.set_slice_whole, Rect.mem_set_unit]
  exact Iff.rfl

/-- The blocks tile the output array: entry (n, k, p) lies in the block of the point for image n and run p / 4096. -/
theorem cover (i : S4x19x32768.Idx) :
    ∃ t : Fin cfg0.N, (cfg0.win 4).flush t = true ∧ i ∈ ((cfg0.win 4).blk t).view.set := by
  have hi0 : (i 0).val < 4 := (i 0).isLt
  have hi1 : (i 1).val < 19 := (i 1).isLt
  have hi2 : (i 2).val < 32768 := (i 2).isLt
  obtain ⟨t, ht⟩ := idx_onto ⟨(i 0).val, hi0⟩ ⟨(i 2).val / 4096, by omega⟩
  have q0 : win0_4.index t (0 : Fin 3) = (i 0).val := congrFun ht 0
  have q1 : win0_4.index t (1 : Fin 3) = 0 := congrFun ht 1
  have q2 : win0_4.index t (2 : Fin 3) = (i 2).val / 4096 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 19 ≤ (i 1).val ∧ (i 1).val < win0_4.index t (1 : Fin 3) * 19 + 19; omega
  | ⟨2, _⟩ => show win0_4.index t (2 : Fin 3) * 4096 ≤ (i 2).val ∧ (i 2).val < win0_4.index t (2 : Fin 3) * 4096 + 4096; omega

/-- THE OUTPUT ARRAY after the region: `regionOut` of the arrays as the region finds them. -/
theorem final (c : Dev nD) :
    (dats m 0 c).arrAt 4 cfg0.N = regionOut (V m c main_v9) (V m c main_v6) (V m c main_v7) (V m c main_v8) :=
  (dats m 0 c).arrAt_eq_of_cover 4 _ (fun t _ => flushed_eq m c t) cover

end Cert.KernelIdeal.Region

end
-- ==== Proof.RegionArrays.lean ====
/-
  What the region finds in its four input arrays.

  Before the region the program normalises each of the 190 prototype rows by its Euclidean norm plus a small
  constant, lays the rows out as a 190 x 256 matrix (narrowed to bf16, which is the identity on exact values),
  reshapes the scale and the shift vectors to 19 x 1 columns, and merges the two spatial axes of the image into
  one axis of 32768 pixels. Each array is stated as that composition of the launch contents.
-/
import proofs.«156458_j47399259078720_2_alg».proof.Proof.Gen.KernelIdeal.Frame
import Idealize.ShloMosaic.Lib.StableHlo.Run
import Idealize.ShloMosaic.PureOps.Ideal

noncomputable section

namespace Cert.KernelIdeal.Region

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- A prototype array with every row divided by (its Euclidean norm + the small constant). -/
def normalised (p : FVec Ideal S19x10x256 .f32) : FVec Ideal S19x10x256 .f32 :=
  Host.divf p (broadcastInDim S19x10x256 ![0, 1, 2] bcast_S19x10x1_S19x10x256_0_1_2
    (addf (Host.sqrt (broadcastInDim S19x10x1 ![0, 1] bcast_S19x10_S19x10x1_0_1
        (Host.reduceAdd (mulf p p) (constant S_ .f32 0x00000000#32) reducesTo_S19x10x256_S19x10_d2 h_S_)))
      (broadcastInDim S19x10x1 ![] bcast_S_S19x10x1 (constant (F := Ideal) S_ .f32 0x2B8CBCCC#32))))

/-- The image with its two spatial axes merged. -/
theorem image (c : Dev nD) :
    (V m c main_v9 : S4x256x32768.Idx → EReal)
      = shapeCast S4x256x32768 (m ((c : Thread nD τ).loc main_arg0)) shapeCasts_S4x256x128x256_S4x256x32768 := by
  dsimp only [V, V0]
  simp only [hostOps0, hostOps0_1, List.flatten_cons, List.flatten_nil, List.append_nil, List.cons_append, List.nil_append]
  after_results
  rfl

/-- The normalised prototypes as a 190 x 256 matrix. -/
theorem protoMatrix (c : Dev nD) :
    (V m c main_v6 : S190x256.Idx → EReal)
      = shapeCast S190x256 (normalised (m ((c : Thread nD τ).loc main_arg1))) shapeCasts_S19x10x256_S190x256 := by
  dsimp only [V, V0]
  simp only [hostOps0, hostOps0_1, List.flatten_cons, List.flatten_nil, List.append_nil, List.cons_append, List.nil_append]
  after_results
  rfl

/-- The scale as a column. -/
theorem scaleCol (c : Dev nD) :
    (V m c main_v7 : S19x1.Idx → EReal) = shapeCast S19x1 (m ((c : Thread nD τ).loc main_arg2)) shapeCasts_S19_S19x1 := by
  dsimp only [V, V0]
  simp only [hostOps0, hostOps0_1, List.flatten_cons, List.flatten_nil, List.append_nil, List.cons_append, List.nil_append]
  after_results
  rfl

/-- The shift as a column. -/
theorem shiftCol (c : Dev nD) :
    (V m c main_v8 : S19x1.Idx → EReal) = shapeCast S19x1 (m ((c : Thread nD τ).loc main_arg3)) shapeCasts_S19_S19x1 := by
  dsimp only [V, V0]
  simp only [hostOps0, hostOps0_1, List.flatten_cons, List.flatten_nil, List.append_nil, List.cons_append, List.nil_append]
  after_results
  rfl

end Cert.KernelIdeal.Region

end
-- ==== Proof.KernelRun.lean ====
/-
  The idealized kernel program's run, read.

  After the region the program only splits the pixel axis of the output array back into rows and columns. So the
  result buffer ends holding that reshape of the region's output array, which is `regionOut` of the four arrays the
  host operations before the region prepared from the arguments.
-/
import proofs.«156458_j47399259078720_2_alg».proof.Proof.RegionValue
import proofs.«156458_j47399259078720_2_alg».proof.Proof.RegionArrays
import Idealize.ShloMosaic.Lib.StableHlo.Run

noncomputable section

namespace Cert.KernelIdeal.Region

open Cert.KernelIdeal Cert.KernelIdeal.Gen Idealize.ShloMosaic Idealize.ShloMosaic.TcCoe Idealize.SL.Sem
open Idealize.ShloMosaic.ValueIdx Cert.LayerNormProto Idealize.ShloMosaic.StableHlo
open Idealize.ShloMosaic.Pipeline (Dat)

variable (m : (ℓ : Loc nD τ sig) → Buf (Elt Ideal) ℓ) (ρ : Dev nD → PrngReg)

/-- The program's result as a function of its four arguments. -/
def kernelOut (x : FVec Ideal S4x256x128x256 .f32) (p : FVec Ideal S19x10x256 .f32) (w b : FVec Ideal S19 .f32) :
    FVec Ideal S4x19x128x256 .f32 :=
  shapeCast S4x19x128x256
    (regionOut (shapeCast S4x256x32768 x shapeCasts_S4x256x128x256_S4x256x32768)
      (shapeCast S190x256 (normalised p) shapeCasts_S19x10x256_S190x256)
      (shapeCast S19x1 w shapeCasts_S19_S19x1) (shapeCast S19x1 b shapeCasts_S19_S19x1))
    shapeCasts_S4x19x32768_S4x19x128x256

/-- The result buffer after the one host operation that follows the region. -/
theorem tail (c : Dev nD) :
    Pipeline.afterTail₀ cfgs (dats m) 0 (V0 m) [hostOps1] c main_v11
      = kernelOut (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v11) = _
  after_results
  have hw : Pipeline.withArrays (cfgs 0).spec c (V0 m c) (fun w => (dats m 0 c).arrAt w (cfgs 0).N)
        (Proc.devRef .tc main_v10)
      = regionOut (V m c main_v9) (V m c main_v6) (V m c main_v7) (V m c main_v8) :=
    (Pipeline.withArrays_arr spec0 launch0.win.arr_inj c _ _ 4).trans (final m c)
  unfold kernelOut
  rw [← image m c, ← protoMatrix m c, ← scaleCol m c, ← shiftCol m c, ← hw]
  rfl

/-- THE RUN, READ: every weakly fair execution of the idealized kernel program ends with the result buffer at
    `kernelOut` of the arguments' launch contents and the arguments unchanged. -/
theorem run : θ_run defs (onTc (τ := τ) (main (F := Ideal))) ⟨m, fun _ => 0, ρ⟩ fun r => ∀ c : Dev nD,
      r.2.mem ((c.tc : Thread nD τ).loc main_v11)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Region

end
-- ==== Proof.RefRun.lean ====
/-
  The run of the reference program, read back as a composed term.

  The reference's @main is a straight line of host tensor operations in which three module-local functions are
  called: a row norm of the prototypes (five operations), a variance over the segments (twenty operations)
  which itself calls a scalar-predicate select (three operations). A call executes the callee's body on the
  operands, so @main is the line of its own operations with the callees' operations in place of the calls, each
  over the buffers of that call. This module states that line, proves @main equal to it, and reads the contents
  of the result buffer after the line as a composition of the operations' functions applied to the four
  arguments' launch contents.

  The composition is staged in named functions, one per mathematical step:
    protoN   : each prototype row p[k,m,:] divided by (sqrt (sum_d p[k,m,d]^2) + eps₁), eps₁ = 0x2B8CBCCC;
    xflat    : x[b,c,h,w] moved to a matrix of rows (b,h,w) and columns c;
    sim      : the matrix product of the rows with every normalized prototype, contracting c;
    seg      : for each row and class k the maximum over the class's ten prototypes, from -∞;
    mean     : for each row the sum over the 19 classes divided by 19;
    variance : for each row the sum over the classes of the squared deviation from the mean, divided by
               (19 - ddof) with ddof the integer 0 converted to a float, selected against a NaN when 19 - ddof ≤ 0;
    normed   : (seg - mean) * rsqrt (variance + eps₂) * w + b, eps₂ = 0x3727C5AC, w and b along the class axis;
    outOf    : the rows (b,h,w) by classes moved back to [b,k,h,w].
  Each body is the literal composition of the operations' functions in the printed order, nothing simplified.

  The contents of the result buffer are read stretch by stretch — prototypes; matrix, similarities and class scores;
  mean and variance; normalisation and the move back — each stretch's results as functions of what the stretch
  before left, so that no intermediate value is spelt out more than once.
-/
import proofs.«156458_j47399259078720_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, staged -/

/-- The prototypes, each row along the last axis divided by its Euclidean norm plus a small constant:
    p ↦ p / broadcast (sqrt (broadcast (Σ_d p·p)) + broadcast eps₁). -/
def protoN (p : FVec F S19x10x256 .f32) : FVec F S19x10x256 .f32 :=
  Host.divf p
    (broadcastInDim S19x10x256 ![0, 1, 2] bcast_S19x10x1_S19x10x256_0_1_2
      (addf
        (Host.sqrt
          (broadcastInDim S19x10x1 ![0, 1] bcast_S19x10_S19x10x1_0_1
            (Host.reduceAdd (mulf p p) (constant S_ .f32 0x00000000#32 : FVec F S_ .f32)
              reducesTo_S19x10x256_S19x10_d2 h_S_)))
        (broadcastInDim S19x10x1 ![] bcast_S_S19x10x1 (constant S_ .f32 0x2B8CBCCC#32 : FVec F S_ .f32))))

/-- The input with its channel axis moved last, then its three leading axes merged: one row per (b, h, w). -/
def xflat (x : FVec F S4x256x128x256 .f32) : FVec F S131072x256 .f32 :=
  shapeCast S131072x256
    (transpose S4x128x256x256 [0, 2, 3, 1] x transposes_S4x256x128x256_S4x128x256x256_0_2_3_1)
    shapeCasts_S4x128x256x256_S131072x256

/-- Every row's inner product with every normalized prototype (the channel axis contracted). -/
def sim (xf : FVec F S131072x256 .f32) (pn : FVec F S19x10x256 .f32) : FVec F S131072x19x10 .f32 :=
  Host.dotGeneral dot_S131072x256_S19x10x256_S131072x19x10_1_2_0_01_n_n none xf pn

/-- For each row and class, the maximum over the class's ten prototypes, starting from -∞. -/
def seg (s : FVec F S131072x19x10 .f32) : FVec F S131072x19 .f32 :=
  Host.reduce FloatOps.maximumf s (constant S_ .f32 0xFF800000#32 : FVec F S_ .f32)
    reducesTo_S131072x19x10_S131072x19_d2 h_S_

/-- For each row, the sum over the classes (from zero), kept as a column, divided by 19. -/
def mean (sg : FVec F S131072x19 .f32) : FVec F S131072x1 .f32 :=
  Host.divf
    (broadcastInDim S131072x1 ![0] bcast_S131072_S131072x1_0
      (Host.reduceAdd sg (constant S_ .f32 0x00000000#32 : FVec F S_ .f32) reducesTo_S131072x19_S131072_d1 h_S_))
    (broadcastInDim S131072x1 ![] bcast_S_S131072x1 (constant S_ .f32 0x41980000#32 : FVec F S_ .f32))

/-- For each row, the sum over the classes of the squared deviation from the row's mean, divided by
    19 - ddof (ddof the integer 0 converted to a float); where 19 - ddof > 0 fails the result is a NaN.
    The mean inside is recomputed exactly as the operations do (sum, column, divided by 19, broadcast back). -/
def variance (sg : FVec F S131072x19 .f32) : FVec F S131072x1 .f32 :=
  select
    (broadcastInDim S131072x1 ![] bcast_S_S131072x1
      (cmpf .ogt
        (subf (constant S_ .f32 0x41980000#32 : FVec F S_ .f32) (sitofp .f32 (constantI S_ 32 0#32)))
        (constant S_ .f32 0x00000000#32 : FVec F S_ .f32)))
    (Host.divf
      (broadcastInDim S131072x1 ![0] bcast_S131072_S131072x1_0
        (Host.reduceAdd
          (mulf
            (subf sg
              (broadcastInDim S131072x19 ![0, 1] bcast_S131072x1_S131072x19_0_1
                (Host.divf
                  (broadcastInDim S131072x1 ![0] bcast_S131072_S131072x1_0
                    (Host.reduceAdd sg (constant S_ .f32 0x00000000#32 : FVec F S_ .f32)
                      reducesTo_S131072x19_S131072_d1 h_S_))
                  (broadcastInDim S131072x1 ![] bcast_S_S131072x1 (constant S_ .f32 0x41980000#32 : FVec F S_ .f32)))))
            (subf sg
              (broadcastInDim S131072x19 ![0, 1] bcast_S131072x1_S131072x19_0_1
                (Host.divf
                  (broadcastInDim S131072x1 ![0] bcast_S131072_S131072x1_0
                    (Host.reduceAdd sg (constant S_ .f32 0x00000000#32 : FVec F S_ .f32)
                      reducesTo_S131072x19_S131072_d1 h_S_))
                  (broadcastInDim S131072x1 ![] bcast_S_S131072x1 (constant S_ .f32 0x41980000#32 : FVec F S_ .f32))))))
          (constant S_ .f32 0x00000000#32 : FVec F S_ .f32) reducesTo_S131072x19_S131072_d1 h_S_))
      (broadcastInDim S131072x1 ![] bcast_S_S131072x1
        (subf (constant S_ .f32 0x41980000#32 : FVec F S_ .f32) (sitofp .f32 (constantI S_ 32 0#32)))))
    (broadcastInDim S131072x1 ![] bcast_S_S131072x1 (id (constant S_ .f32 0x7FC00000#32 : FVec F S_ .f32)))

/-- The segments centred by their row mean, scaled by the reciprocal square root of the row variance plus a small
    constant, then by the per-class weight, plus the per-class bias:
    ((sg - broadcast mean) * broadcast (rsqrt (variance + broadcast eps₂))) * broadcast w + broadcast b. -/
def normed (sg : FVec F S131072x19 .f32) (w b : FVec F S19 .f32) : FVec F S131072x19 .f32 :=
  addf
    (mulf
      (mulf
        (subf sg (broadcastInDim S131072x19 ![0, 1] bcast_S131072x1_S131072x19_0_1 (mean sg)))
        (broadcastInDim S131072x19 ![0, 1] bcast_S131072x1_S131072x19_0_1
          (Host.rsqrt
            (addf (variance sg)
              (broadcastInDim S131072x1 ![] bcast_S_S131072x1 (constant S_ .f32 0x3727C5AC#32 : FVec F S_ .f32))))))
      (broadcastInDim S131072x19 ![0, 1] bcast_S1x19_S131072x19_0_1 (broadcastInDim S1x19 ![1] bcast_S19_S1x19_1 w)))
    (broadcastInDim S131072x19 ![0, 1] bcast_S1x19_S131072x19_0_1 (broadcastInDim S1x19 ![1] bcast_S19_S1x19_1 b))

/-- The rows split back into (b, h, w), then the class axis moved to second place. -/
def outOf (y : FVec F S131072x19 .f32) : FVec F S4x19x128x256 .f32 :=
  transpose S4x19x128x256 [0, 3, 1, 2]
    (shapeCast S4x128x256x19 y shapeCasts_S131072x19_S4x128x256x19)
    transposes_S4x128x256x19_S4x19x128x256_0_3_1_2

/-- What the reference computes from its four arguments' contents. -/
def refOut (x : FVec F S4x256x128x256 .f32) (p : FVec F S19x10x256 .f32) (w b : FVec F S19 .f32) :
    FVec F S4x19x128x256 .f32 :=
  outOf (normed (seg (sim (xflat x) (protoN p))) w b)

/-! ## The program as a line of operations -/

/-- @main's sixty-one operations in order, the calls unfolded: the norm's five first, over the first call's
    buffers; seventeen of @main's own; the variance's twenty over the second call's buffers followed by the
    select's three over the nested call's; the last sixteen of @main's own. -/
abbrev ops : List (HloOp τ sig (Elt F)) :=
  [
    StableHlo.TRef.binary (.of main_arg1 : TRef sig ⟨S19x10x256, .f32⟩) (.of main_arg1 : TRef sig ⟨S19x10x256, .f32⟩) main_call0.v0 mulf,
    StableHlo.TRef.nullary main_call0.cst (constant S_ .f32 0x00000000#32),
    StableHlo.TRef.binary main_call0.v0 main_call0.cst main_call0.v1 (fun x v => Host.reduceAdd x v reducesTo_S19x10x256_S19x10_d2 h_S_),
    StableHlo.TRef.unary main_call0.v1 main_call0.v2 (broadcastInDim S19x10x1 ![0, 1] bcast_S19x10_S19x10x1_0_1),
    StableHlo.TRef.unary main_call0.v2 main_call0.v3 Host.sqrt,
    StableHlo.nullary main_cst (constant S_ .f32 0x2B8CBCCC#32),
    StableHlo.unary main_cst main_v1 (broadcastInDim S19x10x1 ![] bcast_S_S19x10x1 : (⟨S_, .f32⟩ : BufTy).Contents (Elt F) → (⟨S19x10x1, .f32⟩ : BufTy).Contents (Elt F)),
    StableHlo.binary main_v0 main_v1 main_v2 (addf : (⟨S19x10x1, .f32⟩ : BufTy).Contents (Elt F) → (⟨S19x10x1, .f32⟩ : BufTy).Contents (Elt F) → (⟨S19x10x1, .f32⟩ : BufTy).Contents (Elt F)),
    StableHlo.unary main_v2 main_v3 (broadcastInDim S19x10x256 ![0, 1, 2] bcast_S19x10x1_S19x10x256_0_1_2 : (⟨S19x10x1, .f32⟩ : BufTy).Contents (Elt F) → (⟨S19x10x256, .f32⟩ : BufTy).Contents (Elt F)),
    StableHlo.binary main_arg1 main_v3 main_v4 (Host.divf : (⟨S19x10x256, .f32⟩ : BufTy).Contents (Elt F) → (⟨S19x10x256, .f32⟩ : BufTy).Contents (Elt F) → (⟨S19x10x256, .f32⟩ : BufTy).Contents (Elt F)),
    StableHlo.unary main_arg0 main_v5 ((transpose S4x128x256x256 [0, 2, 3, 1] · transposes_S4x256x128x256_S4x128x256x256_0_2_3_1) : (⟨S4x256x128x256, .f32⟩ : BufTy).Contents (Elt F) → (⟨S4x128x256x256, .f32⟩ : BufTy).Contents (Elt F)),
    StableHlo.reshape main_v5 main_v6 rfl shapeCasts_S4x128x256x256_S131072x256,
    StableHlo.binary main_v6 main_v4 main_v7 ((fun l r => Host.dotGeneral dot_S131072x256_S19x10x256_S131072x19x10_1_2_0_01_n_n none l r) : (⟨S131072x256, .f32⟩ : BufTy).Contents (Elt F) → (⟨S19x10x256, .f32⟩ : BufTy).Contents (Elt F) → (⟨S131072x19x10, .f32⟩ : BufTy).Contents (Elt F)),
    StableHlo.nullary main_cst_0 (constant S_ .f32 0xFF800000#32),
    StableHlo.binary main_v7 main_cst_0 main_v8 ((fun x v => Host.reduce FloatOps.maximumf x v reducesTo_S131072x19x10_S131072x19_d2 h_S_) : (⟨S131072x19x10, .f32⟩ : BufTy).Contents (Elt F) → (⟨S_, .f32⟩ : BufTy).Contents (Elt F) → (⟨S131072x19, .f32⟩ : BufTy).Contents (Elt F)),
    StableHlo.nullary main_cst_1 (constant S_ .f32 0x00000000#32),
    StableHlo.binary main_v8 main_cst_1 main_v9 ((fun x v => Host.reduceAdd x v reducesTo_S131072x19_S131072_d1 h_S_) : (⟨S131072x19, .f32⟩ : BufTy).Contents (Elt F) → (⟨S_, .f32⟩ : BufTy).Contents (Elt F) → (⟨S131072, .f32⟩ : BufTy).Contents (Elt F)),
    StableHlo.unary main_v9 main_v10 (broadcastInDim S131072x1 ![0] bcast_S131072_S131072x1_0 : (⟨S131072, .f32⟩ : BufTy).Contents (Elt F) → (⟨S131072x1, .f32⟩ : BufTy).Contents (Elt F)),
    StableHlo.nullary main_cst_2 (constant S_ .f32 0x41980000#32),
    StableHlo.unary main_cst_2 main_v11 (broadcastInDim S131072x1 ![] bcast_S_S131072x1 : (⟨S_, .f32⟩ : BufTy).Contents (Elt F) → (⟨S131072x1, .f32⟩ : BufTy).Contents (Elt F)),
    StableHlo.binary main_v10 main_v11 main_v12 (Host.divf : (⟨S131072x1, .f32⟩ : BufTy).Contents (Elt F) → (⟨S131072x1, .f32⟩ : BufTy).Contents (Elt F) → (⟨S131072x1, .f32⟩ : BufTy).Contents (Elt F)),
    StableHlo.nullary main_c (constantI S_ 32 0#32),
    StableHlo.TRef.nullary main_call1.cst (constant S_ .f32 0x00000000#32),
    StableHlo.TRef.binary (.of main_v8 : TRef sig ⟨S131072x19, .f32⟩) main_call1.cst main_call1.v0 (fun x v => Host.reduceAdd x v reducesTo_S131072x19_S131072_d1 h_S_),
    StableHlo.TRef.unary main_call1.v0 main_call1.v1 (broadcastInDim S131072x1 ![0] bcast_S131072_S131072x1_0),
    StableHlo.TRef.nullary main_call1.cst_0 (constant S_ .f32 0x41980000#32),
    StableHlo.TRef.unary main_call1.cst_0 main_call1.v2 (broadcastInDim S131072x1 ![] bcast_S_S131072x1),
    StableHlo.TRef.binary main_call1.v1 main_call1.v2 main_call1.v3 Host.divf,
    StableHlo.TRef.unary main_call1.v3 main_call1.v4 (broadcastInDim S131072x19 ![0, 1] bcast_S131072x1_S131072x19_0_1),
    StableHlo.TRef.binary (.of main_v8 : TRef sig ⟨S131072x19, .f32⟩) main_call1.v4 main_call1.v5 subf,
    StableHlo.TRef.binary main_call1.v5 main_call1.v5 main_call1.v6 mulf,
    StableHlo.TRef.unary (.of main_c : TRef sig ⟨S_, .i32⟩) main_call1.v7 (sitofp .f32),
    StableHlo.TRef.nullary main_call1.cst_1 (constant S_ .f32 0x41980000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S131072x19_S131072_d1 h_S_),
    StableHlo.TRef.unary main_call1.v9 main_call1.v10 (broadcastInDim S131072x1 ![0] bcast_S131072_S131072x1_0),
    StableHlo.TRef.unary main_call1.v8 main_call1.v11 (broadcastInDim S131072x1 ![] bcast_S_S131072x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S131072x1 ![] bcast_S_S131072x1),
    StableHlo.TRef.ternary main_call1.v13 main_call1.v12 main_call1.call0.v1 main_call1.call0.v2 (fun p a b => select (broadcastInDim S131072x1 ![] bcast_S_S131072x1 p) a b),
    StableHlo.unary main_v12 main_v14 (broadcastInDim S131072x19 ![0, 1] bcast_S131072x1_S131072x19_0_1 : (⟨S131072x1, .f32⟩ : BufTy).Contents (Elt F) → (⟨S131072x19, .f32⟩ : BufTy).Contents (Elt F)),
    StableHlo.binary main_v8 main_v14 main_v15 (subf : (⟨S131072x19, .f32⟩ : BufTy).Contents (Elt F) → (⟨S131072x19, .f32⟩ : BufTy).Contents (Elt F) → (⟨S131072x19, .f32⟩ : BufTy).Contents (Elt F)),
    StableHlo.nullary main_cst_3 (constant S_ .f32 0x3727C5AC#32),
    StableHlo.unary main_cst_3 main_v16 (broadcastInDim S131072x1 ![] bcast_S_S131072x1 : (⟨S_, .f32⟩ : BufTy).Contents (Elt F) → (⟨S131072x1, .f32⟩ : BufTy).Contents (Elt F)),
    StableHlo.binary main_v13 main_v16 main_v17 (addf : (⟨S131072x1, .f32⟩ : BufTy).Contents (Elt F) → (⟨S131072x1, .f32⟩ : BufTy).Contents (Elt F) → (⟨S131072x1, .f32⟩ : BufTy).Contents (Elt F)),
    StableHlo.unary main_v17 main_v18 (Host.rsqrt : (⟨S131072x1, .f32⟩ : BufTy).Contents (Elt F) → (⟨S131072x1, .f32⟩ : BufTy).Contents (Elt F)),
    StableHlo.unary main_v18 main_v19 (broadcastInDim S131072x19 ![0, 1] bcast_S131072x1_S131072x19_0_1 : (⟨S131072x1, .f32⟩ : BufTy).Contents (Elt F) → (⟨S131072x19, .f32⟩ : BufTy).Contents (Elt F)),
    StableHlo.binary main_v15 main_v19 main_v20 (mulf : (⟨S131072x19, .f32⟩ : BufTy).Contents (Elt F) → (⟨S131072x19, .f32⟩ : BufTy).Contents (Elt F) → (⟨S131072x19, .f32⟩ : BufTy).Contents (Elt F)),
    StableHlo.unary main_arg2 main_v21 (broadcastInDim S1x19 ![1] bcast_S19_S1x19_1 : (⟨S19, .f32⟩ : BufTy).Contents (Elt F) → (⟨S1x19, .f32⟩ : BufTy).Contents (Elt F)),
    StableHlo.unary main_v21 main_v22 (broadcastInDim S131072x19 ![0, 1] bcast_S1x19_S131072x19_0_1 : (⟨S1x19, .f32⟩ : BufTy).Contents (Elt F) → (⟨S131072x19, .f32⟩ : BufTy).Contents (Elt F)),
    StableHlo.binary main_v20 main_v22 main_v23 (mulf : (⟨S131072x19, .f32⟩ : BufTy).Contents (Elt F) → (⟨S131072x19, .f32⟩ : BufTy).Contents (Elt F) → (⟨S131072x19, .f32⟩ : BufTy).Contents (Elt F)),
    StableHlo.unary main_arg3 main_v24 (broadcastInDim S1x19 ![1] bcast_S19_S1x19_1 : (⟨S19, .f32⟩ : BufTy).Contents (Elt F) → (⟨S1x19, .f32⟩ : BufTy).Contents (Elt F)),
    StableHlo.unary main_v24 main_v25 (broadcastInDim S131072x19 ![0, 1] bcast_S1x19_S131072x19_0_1 : (⟨S1x19, .f32⟩ : BufTy).Contents (Elt F) → (⟨S131072x19, .f32⟩ : BufTy).Contents (Elt F)),
    StableHlo.binary main_v23 main_v25 main_v26 (addf : (⟨S131072x19, .f32⟩ : BufTy).Contents (Elt F) → (⟨S131072x19, .f32⟩ : BufTy).Contents (Elt F) → (⟨S131072x19, .f32⟩ : BufTy).Contents (Elt F)),
    StableHlo.reshape main_v26 main_v27 rfl shapeCasts_S131072x19_S4x128x256x19,
    StableHlo.unary main_v27 main_v28 ((transpose S4x19x128x256 [0, 3, 1, 2] · transposes_S4x128x256x19_S4x19x128x256_0_3_1_2) : (⟨S4x128x256x19, .f32⟩ : BufTy).Contents (Elt F) → (⟨S4x19x128x256, .f32⟩ : BufTy).Contents (Elt F)) ]

-- sixty-one binds re-associated: the rewrite under the chain recurses once per statement
set_option maxRecDepth 2048 in
set_option maxHeartbeats 400000 in
/-- @main is that line: the three functions' definitions unfolded at their calls, both sides are one chain of
    steps once sequencing is re-associated. -/
theorem main_eq (c : Dev nD) : main (F := F) c = seq ops := by
  simp only [main, fn_norm.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., reshape_bufs_sub ..,
    binary_bufs_sub .., nullary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., reshape_bufs_sub ..,
    unary_bufs_sub ..⟩

/-! ## The contents after the line -/

/-! ## The line in four stretches -/

/-- The first stretch: the prototypes normalised (the norm's five operations and five of @main's). -/
abbrev opsA : List (HloOp τ sig (Elt F)) :=
  [
    StableHlo.TRef.binary (.of main_arg1 : TRef sig ⟨S19x10x256, .f32⟩) (.of main_arg1 : TRef sig ⟨S19x10x256, .f32⟩) main_call0.v0 mulf,
    StableHlo.TRef.nullary main_call0.cst (constant S_ .f32 0x00000000#32),
    StableHlo.TRef.binary main_call0.v0 main_call0.cst main_call0.v1 (fun x v => Host.reduceAdd x v reducesTo_S19x10x256_S19x10_d2 h_S_),
    StableHlo.TRef.unary main_call0.v1 main_call0.v2 (broadcastInDim S19x10x1 ![0, 1] bcast_S19x10_S19x10x1_0_1),
    StableHlo.TRef.unary main_call0.v2 main_call0.v3 Host.sqrt,
    StableHlo.nullary main_cst (constant S_ .f32 0x2B8CBCCC#32),
    StableHlo.unary main_cst main_v1 (broadcastInDim S19x10x1 ![] bcast_S_S19x10x1 : (⟨S_, .f32⟩ : BufTy).Contents (Elt F) → (⟨S19x10x1, .f32⟩ : BufTy).Contents (Elt F)),
    StableHlo.binary main_v0 main_v1 main_v2 (addf : (⟨S19x10x1, .f32⟩ : BufTy).Contents (Elt F) → (⟨S19x10x1, .f32⟩ : BufTy).Contents (Elt F) → (⟨S19x10x1, .f32⟩ : BufTy).Contents (Elt F)),
    StableHlo.unary main_v2 main_v3 (broadcastInDim S19x10x256 ![0, 1, 2] bcast_S19x10x1_S19x10x256_0_1_2 : (⟨S19x10x1, .f32⟩ : BufTy).Contents (Elt F) → (⟨S19x10x256, .f32⟩ : BufTy).Contents (Elt F)),
    StableHlo.binary main_arg1 main_v3 main_v4 (Host.divf : (⟨S19x10x256, .f32⟩ : BufTy).Contents (Elt F) → (⟨S19x10x256, .f32⟩ : BufTy).Contents (Elt F) → (⟨S19x10x256, .f32⟩ : BufTy).Contents (Elt F)) ]

/-- The second stretch: the pixel-major matrix, the similarities, the class scores. -/
abbrev opsB : List (HloOp τ sig (Elt F)) :=
  [
    StableHlo.unary main_arg0 main_v5 ((transpose S4x128x256x256 [0, 2, 3, 1] · transposes_S4x256x128x256_S4x128x256x256_0_2_3_1) : (⟨S4x256x128x256, .f32⟩ : BufTy).Contents (Elt F) → (⟨S4x128x256x256, .f32⟩ : BufTy).Contents (Elt F)),
    StableHlo.reshape main_v5 main_v6 rfl shapeCasts_S4x128x256x256_S131072x256,
    StableHlo.binary main_v6 main_v4 main_v7 ((fun l r => Host.dotGeneral dot_S131072x256_S19x10x256_S131072x19x10_1_2_0_01_n_n none l r) : (⟨S131072x256, .f32⟩ : BufTy).Contents (Elt F) → (⟨S19x10x256, .f32⟩ : BufTy).Contents (Elt F) → (⟨S131072x19x10, .f32⟩ : BufTy).Contents (Elt F)),
    StableHlo.nullary main_cst_0 (constant S_ .f32 0xFF800000#32),
    StableHlo.binary main_v7 main_cst_0 main_v8 ((fun x v => Host.reduce FloatOps.maximumf x v reducesTo_S131072x19x10_S131072x19_d2 h_S_) : (⟨S131072x19x10, .f32⟩ : BufTy).Contents (Elt F) → (⟨S_, .f32⟩ : BufTy).Contents (Elt F) → (⟨S131072x19, .f32⟩ : BufTy).Contents (Elt F)) ]

/-- The third stretch: the row mean, then the variance function's twenty operations and its select's three. -/
abbrev opsC : List (HloOp τ sig (Elt F)) :=
  [
    StableHlo.nullary main_cst_1 (constant S_ .f32 0x00000000#32),
    StableHlo.binary main_v8 main_cst_1 main_v9 ((fun x v => Host.reduceAdd x v reducesTo_S131072x19_S131072_d1 h_S_) : (⟨S131072x19, .f32⟩ : BufTy).Contents (Elt F) → (⟨S_, .f32⟩ : BufTy).Contents (Elt F) → (⟨S131072, .f32⟩ : BufTy).Contents (Elt F)),
    StableHlo.unary main_v9 main_v10 (broadcastInDim S131072x1 ![0] bcast_S131072_S131072x1_0 : (⟨S131072, .f32⟩ : BufTy).Contents (Elt F) → (⟨S131072x1, .f32⟩ : BufTy).Contents (Elt F)),
    StableHlo.nullary main_cst_2 (constant S_ .f32 0x41980000#32),
    StableHlo.unary main_cst_2 main_v11 (broadcastInDim S131072x1 ![] bcast_S_S131072x1 : (⟨S_, .f32⟩ : BufTy).Contents (Elt F) → (⟨S131072x1, .f32⟩ : BufTy).Contents (Elt F)),
    StableHlo.binary main_v10 main_v11 main_v12 (Host.divf : (⟨S131072x1, .f32⟩ : BufTy).Contents (Elt F) → (⟨S131072x1, .f32⟩ : BufTy).Contents (Elt F) → (⟨S131072x1, .f32⟩ : BufTy).Contents (Elt F)),
    StableHlo.nullary main_c (constantI S_ 32 0#32),
    StableHlo.TRef.nullary main_call1.cst (constant S_ .f32 0x00000000#32),
    StableHlo.TRef.binary (.of main_v8 : TRef sig ⟨S131072x19, .f32⟩) main_call1.cst main_call1.v0 (fun x v => Host.reduceAdd x v reducesTo_S131072x19_S131072_d1 h_S_),
    StableHlo.TRef.unary main_call1.v0 main_call1.v1 (broadcastInDim S131072x1 ![0] bcast_S131072_S131072x1_0),
    StableHlo.TRef.nullary main_call1.cst_0 (constant S_ .f32 0x41980000#32),
    StableHlo.TRef.unary main_call1.cst_0 main_call1.v2 (broadcastInDim S131072x1 ![] bcast_S_S131072x1),
    StableHlo.TRef.binary main_call1.v1 main_call1.v2 main_call1.v3 Host.divf,
    StableHlo.TRef.unary main_call1.v3 main_call1.v4 (broadcastInDim S131072x19 ![0, 1] bcast_S131072x1_S131072x19_0_1),
    StableHlo.TRef.binary (.of main_v8 : TRef sig ⟨S131072x19, .f32⟩) main_call1.v4 main_call1.v5 subf,
    StableHlo.TRef.binary main_call1.v5 main_call1.v5 main_call1.v6 mulf,
    StableHlo.TRef.unary (.of main_c : TRef sig ⟨S_, .i32⟩) main_call1.v7 (sitofp .f32),
    StableHlo.TRef.nullary main_call1.cst_1 (constant S_ .f32 0x41980000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S131072x19_S131072_d1 h_S_),
    StableHlo.TRef.unary main_call1.v9 main_call1.v10 (broadcastInDim S131072x1 ![0] bcast_S131072_S131072x1_0),
    StableHlo.TRef.unary main_call1.v8 main_call1.v11 (broadcastInDim S131072x1 ![] bcast_S_S131072x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S131072x1 ![] bcast_S_S131072x1),
    StableHlo.TRef.ternary main_call1.v13 main_call1.v12 main_call1.call0.v1 main_call1.call0.v2 (fun p a b => select (broadcastInDim S131072x1 ![] bcast_S_S131072x1 p) a b) ]

/-- The fourth stretch: the normalisation, scale and shift, and the move back to (image, class, row, column). -/
abbrev opsD : List (HloOp τ sig (Elt F)) :=
  [
    StableHlo.unary main_v12 main_v14 (broadcastInDim S131072x19 ![0, 1] bcast_S131072x1_S131072x19_0_1 : (⟨S131072x1, .f32⟩ : BufTy).Contents (Elt F) → (⟨S131072x19, .f32⟩ : BufTy).Contents (Elt F)),
    StableHlo.binary main_v8 main_v14 main_v15 (subf : (⟨S131072x19, .f32⟩ : BufTy).Contents (Elt F) → (⟨S131072x19, .f32⟩ : BufTy).Contents (Elt F) → (⟨S131072x19, .f32⟩ : BufTy).Contents (Elt F)),
    StableHlo.nullary main_cst_3 (constant S_ .f32 0x3727C5AC#32),
    StableHlo.unary main_cst_3 main_v16 (broadcastInDim S131072x1 ![] bcast_S_S131072x1 : (⟨S_, .f32⟩ : BufTy).Contents (Elt F) → (⟨S131072x1, .f32⟩ : BufTy).Contents (Elt F)),
    StableHlo.binary main_v13 main_v16 main_v17 (addf : (⟨S131072x1, .f32⟩ : BufTy).Contents (Elt F) → (⟨S131072x1, .f32⟩ : BufTy).Contents (Elt F) → (⟨S131072x1, .f32⟩ : BufTy).Contents (Elt F)),
    StableHlo.unary main_v17 main_v18 (Host.rsqrt : (⟨S131072x1, .f32⟩ : BufTy).Contents (Elt F) → (⟨S131072x1, .f32⟩ : BufTy).Contents (Elt F)),
    StableHlo.unary main_v18 main_v19 (broadcastInDim S131072x19 ![0, 1] bcast_S131072x1_S131072x19_0_1 : (⟨S131072x1, .f32⟩ : BufTy).Contents (Elt F) → (⟨S131072x19, .f32⟩ : BufTy).Contents (Elt F)),
    StableHlo.binary main_v15 main_v19 main_v20 (mulf : (⟨S131072x19, .f32⟩ : BufTy).Contents (Elt F) → (⟨S131072x19, .f32⟩ : BufTy).Contents (Elt F) → (⟨S131072x19, .f32⟩ : BufTy).Contents (Elt F)),
    StableHlo.unary main_arg2 main_v21 (broadcastInDim S1x19 ![1] bcast_S19_S1x19_1 : (⟨S19, .f32⟩ : BufTy).Contents (Elt F) → (⟨S1x19, .f32⟩ : BufTy).Contents (Elt F)),
    StableHlo.unary main_v21 main_v22 (broadcastInDim S131072x19 ![0, 1] bcast_S1x19_S131072x19_0_1 : (⟨S1x19, .f32⟩ : BufTy).Contents (Elt F) → (⟨S131072x19, .f32⟩ : BufTy).Contents (Elt F)),
    StableHlo.binary main_v20 main_v22 main_v23 (mulf : (⟨S131072x19, .f32⟩ : BufTy).Contents (Elt F) → (⟨S131072x19, .f32⟩ : BufTy).Contents (Elt F) → (⟨S131072x19, .f32⟩ : BufTy).Contents (Elt F)),
    StableHlo.unary main_arg3 main_v24 (broadcastInDim S1x19 ![1] bcast_S19_S1x19_1 : (⟨S19, .f32⟩ : BufTy).Contents (Elt F) → (⟨S1x19, .f32⟩ : BufTy).Contents (Elt F)),
    StableHlo.unary main_v24 main_v25 (broadcastInDim S131072x19 ![0, 1] bcast_S1x19_S131072x19_0_1 : (⟨S1x19, .f32⟩ : BufTy).Contents (Elt F) → (⟨S131072x19, .f32⟩ : BufTy).Contents (Elt F)),
    StableHlo.binary main_v23 main_v25 main_v26 (addf : (⟨S131072x19, .f32⟩ : BufTy).Contents (Elt F) → (⟨S131072x19, .f32⟩ : BufTy).Contents (Elt F) → (⟨S131072x19, .f32⟩ : BufTy).Contents (Elt F)),
    StableHlo.reshape main_v26 main_v27 rfl shapeCasts_S131072x19_S4x128x256x19,
    StableHlo.unary main_v27 main_v28 ((transpose S4x19x128x256 [0, 3, 1, 2] · transposes_S4x128x256x19_S4x19x128x256_0_3_1_2) : (⟨S4x128x256x19, .f32⟩ : BufTy).Contents (Elt F) → (⟨S4x19x128x256, .f32⟩ : BufTy).Contents (Elt F)) ]

/-- The line is its four stretches in order. -/
theorem ops_split : (ops : List (HloOp τ sig (Elt F))) = opsA ++ (opsB ++ (opsC ++ opsD)) := rfl

/-- The contents after two stretches in a row are the second's after the first's. -/
theorem after_append' : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_append' l₁ l₂]

/-- The last stretch's function of the class scores, their row means and row variances, the scale and the shift. -/
def normedOf (sg : FVec F S131072x19 .f32) (mu var : FVec F S131072x1 .f32) (w b : FVec F S19 .f32) : FVec F S131072x19 .f32 :=
  addf
    (mulf
      (mulf
        (subf sg (broadcastInDim S131072x19 ![0, 1] bcast_S131072x1_S131072x19_0_1 mu))
        (broadcastInDim S131072x19 ![0, 1] bcast_S131072x1_S131072x19_0_1
          (Host.rsqrt
            (addf var
              (broadcastInDim S131072x1 ![] bcast_S_S131072x1 (constant S_ .f32 0x3727C5AC#32 : FVec F S_ .f32))))))
      (broadcastInDim S131072x19 ![0, 1] bcast_S1x19_S131072x19_0_1 (broadcastInDim S1x19 ![1] bcast_S19_S1x19_1 w)))
    (broadcastInDim S131072x19 ![0, 1] bcast_S1x19_S131072x19_0_1 (broadcastInDim S1x19 ![1] bcast_S19_S1x19_1 b))

theorem normed_eq (sg : FVec F S131072x19 .f32) (w b : FVec F S19 .f32) :
    normed sg w b = normedOf sg (mean sg) (variance sg) w b := rfl

section Stretches
variable (W : Valuation τ sig (Elt F))

-- the reductions and the product are folds over the operand's elements: no equation here looks inside them
attribute [local irreducible] Host.reduce Host.reduceAdd

set_option maxRecDepth 8192 in
theorem A_v4 : after opsA W (main_v4 : DevRef τ sig) = protoN (W (main_arg1 : DevRef τ sig)) := by
  after_results_simp
  rfl
set_option maxRecDepth 8192 in
theorem A_arg0 : after opsA W (main_arg0 : DevRef τ sig) = W (main_arg0 : DevRef τ sig) := by after_results_simp
set_option maxRecDepth 8192 in
theorem A_arg2 : after opsA W (main_arg2 : DevRef τ sig) = W (main_arg2 : DevRef τ sig) := by after_results_simp
set_option maxRecDepth 8192 in
theorem A_arg3 : after opsA W (main_arg3 : DevRef τ sig) = W (main_arg3 : DevRef τ sig) := by after_results_simp

set_option maxRecDepth 8192 in
theorem B_v8 : after opsB W (main_v8 : DevRef τ sig)
    = seg (sim (xflat (W (main_arg0 : DevRef τ sig))) (W (main_v4 : DevRef τ sig))) := by
  after_results_simp
  rfl
set_option maxRecDepth 8192 in
theorem B_arg2 : after opsB W (main_arg2 : DevRef τ sig) = W (main_arg2 : DevRef τ sig) := by after_results_simp
set_option maxRecDepth 8192 in
theorem B_arg3 : after opsB W (main_arg3 : DevRef τ sig) = W (main_arg3 : DevRef τ sig) := by after_results_simp

set_option maxRecDepth 8192 in
theorem C_v12 : after opsC W (main_v12 : DevRef τ sig) = mean (W (main_v8 : DevRef τ sig)) := by
  after_results_simp
  rfl
set_option maxRecDepth 8192 in
set_option maxHeartbeats 400000 in
theorem C_v13 : after opsC W (main_v13 : DevRef τ sig) = variance (W (main_v8 : DevRef τ sig)) := by
  after_results_simp
  rfl
set_option maxRecDepth 8192 in
theorem C_v8 : after opsC W (main_v8 : DevRef τ sig) = W (main_v8 : DevRef τ sig) := by after_results_simp
set_option maxRecDepth 8192 in
theorem C_arg2 : after opsC W (main_arg2 : DevRef τ sig) = W (main_arg2 : DevRef τ sig) := by after_results_simp
set_option maxRecDepth 8192 in
theorem C_arg3 : after opsC W (main_arg3 : DevRef τ sig) = W (main_arg3 : DevRef τ sig) := by after_results_simp

set_option maxRecDepth 8192 in
theorem D_v28 : after opsD W (main_v28 : DevRef τ sig)
    = outOf (normedOf (W (main_v8 : DevRef τ sig)) (W (main_v12 : DevRef τ sig)) (W (main_v13 : DevRef τ sig))
        (W (main_arg2 : DevRef τ sig)) (W (main_arg3 : DevRef τ sig))) := by
  after_results_simp
  rfl

end Stretches

/-- After the line the result buffer holds `refOut` of the four arguments' contents: stretch by stretch, each
    stretch's results being functions of what the stretch before left. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  rw [ops_split, after_append', after_append', after_append', D_v28, C_v8, C_v12, C_v13, C_arg2, C_arg3,
    B_v8, B_arg2, B_arg3, A_v4, A_arg0, A_arg2, A_arg3]
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

/-- On the one device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.Consts.lean ====
/-
  The float literals whose VALUE the argument needs, as extended reals.

  Only the reference's variance helper evaluates literals: it divides the sum of squared deviations by
  `19 - float(0)` and keeps the quotient where that divisor is positive. So the facts needed are that
  the pattern of `19.0` denotes the real 19, that the signed integer zero converts to the real 0, and
  hence that the divisor is the literal 19 itself and the guard holds. Every other literal occurs with
  the same pattern on both sides and is never evaluated.
-/
import Idealize.ShloMosaic.PureOps.Ideal
import Idealize.ShloMosaic.PureOps.Ideal.Laws

noncomputable section

namespace Cert.LayerNormProto.Consts

open Idealize.ShloMosaic

/-- The pattern of `19.0` denotes the real 19. -/
theorem ofBits_nineteen : Ideal.ofBits .f32 0x41980000#32 = ((19 : ℝ) : EReal) := by
  simp [Ideal.ofBits, Ideal.ieee, -EReal.coe_mul]; norm_num

/-- The signed 32-bit zero converts to the real 0. -/
theorem sitofp_zero : (((0#32 : BitVec 32).toInt : ℝ) : EReal) = 0 := by
  simp

/-- The variance helper's divisor `19 - float(0)` is the literal 19. -/
theorem nineteen_sub_zero :
    Ideal.ofBits .f32 0x41980000#32 - (((0#32 : BitVec 32).toInt : ℝ) : EReal) = Ideal.ofBits .f32 0x41980000#32 := by
  rw [sitofp_zero, sub_zero]

/-- Its guard `19 - float(0) > 0` holds. -/
theorem guard_pos :
    Ideal.cmp .ogt (Ideal.ofBits .f32 0x41980000#32 - (((0#32 : BitVec 32).toInt : ℝ) : EReal))
      (Ideal.ofBits .f32 0x00000000#32) = 1#1 := by
  rw [nineteen_sub_zero, Ideal.ofBits_zero_f32, ofBits_nineteen]
  have h : (0 : EReal) < ((19 : ℝ) : EReal) := by exact_mod_cast (by norm_num : (0 : ℝ) < 19)
  simp [Ideal.cmp, h]

end Cert.LayerNormProto.Consts

end
-- ==== Proof.Broadcasts.lean ====
/-
  The `broadcast_in_dim` forms of the reference, read at an index written by coordinates: a vector made a column
  (a keep-dimensions reduction), a scalar spread over an array, a column or a row spread over a matrix, and a
  vector made a row (a per-class parameter).
-/
import Idealize.ShloMosaic.Lib.Pipeline.Value
import Idealize.ShloMosaic.Lib.ValueIdx
import Idealize.ShloMosaic.Lib.ValueLayout

noncomputable section

namespace Cert.LayerNormProto.Layout

open Idealize.ShloMosaic Idealize.ShloMosaic.ValueIdx

variable {α : Type}

/-- A vector made a column: entry (r, u) is the vector's entry r. -/
theorem bcast_vec_col {a : ℕ} (v : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

/-- A scalar spread over an array: every entry is the scalar. -/
theorem bcast_scalar {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A column spread over a matrix: entry (r, k) is the column's entry r. -/
theorem bcast_col_mat {a b : ℕ} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A row spread over a matrix: entry (r, k) is the row's entry k. -/
theorem bcast_row_mat {a b : ℕ} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ (![0, 1] : Fin 2 → Fin 2) h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

/-- A vector made a row: entry (u, k) is the vector's entry k. -/
theorem bcast_vec_row {b : ℕ} (v : (⟨1, ![b]⟩ : Shape).Idx → α)
    (h : (⟨1, ![b]⟩ : Shape).BroadcastsInDim ⟨2, ![1, b]⟩ (![1] : Fin 1 → Fin 2)) (u : Fin 1) (k : Fin b) :
    broadcastInDim ⟨2, ![1, b]⟩ (![1] : Fin 1 → Fin 2) h v (ix2 u k) = v (ix1 k) := by
  refine broadcastInDim_apply _ h v (ix2 u k) (ix1 k) fun ax => ?_
  match ax with
  | ⟨0, _⟩ =>
    show k.val = if b = 1 then 0 else k.val
    split
    · have := k.isLt; omega
    · rfl

end Cert.LayerNormProto.Layout

end
-- ==== Proof.RefRead.lean ====
/-
  The reference's result at an index.

  The reference lays the image out as a matrix with one row per pixel (image n, row h, column w) — row
  ((128 n + h) 256 + w) — and one column per channel, multiplies it with every normalised prototype, takes each
  class's maximum over its ten prototypes, layer-normalises the nineteen scores of a row, and moves the rows
  back to (image, class, row, column). Each stage is read at an index written by coordinates; the variance helper's
  divisor `19 - float(0)` is the literal 19 and its guard holds, so the helper is the plain mean of squared
  deviations. Together, entry (n, k, h, w) of the result is the pixel's result `pixelOut` from the similarities
  `∑ c, feature c of pixel (n, h, w) · normalised prototype (k', j) at c`.
-/
import proofs.«156458_j47399259078720_2_alg».proof.Proof.RefRun
import proofs.«156458_j47399259078720_2_alg».proof.Proof.Spec
import proofs.«156458_j47399259078720_2_alg».proof.Proof.Consts
import proofs.«156458_j47399259078720_2_alg».proof.Proof.Broadcasts
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Cert.ReferenceIdeal.RefRead

open Cert.ReferenceIdeal Cert.ReferenceIdeal.Gen Idealize.ShloMosaic Idealize.ShloMosaic.ValueIdx
open Cert.ReferenceIdeal.RefRun (protoN xflat sim seg normed outOf refOut)
open Cert.LayerNormProto (negInf nineteen eps row classScore layerNorm pixelOut)
open Cert.LayerNormProto

/-- The matrix row of pixel (image n, row h, column w). -/
def pix (n : Fin 4) (h : Fin 128) (w : Fin 256) : Fin 131072 :=
  ⟨(n.val * 128 + h.val) * 256 + w.val, by have := n.isLt; have := h.isLt; have := w.isLt; omega⟩

theorem hred2 : S131072x19x10.Reduces [2] S131072x19 := by decide
theorem hred1 : S131072x19.Reduces [1] S131072 := by decide

/-- The pixel-major matrix: row of pixel (n, h, w), column c, is the image at (n, c, h, w). -/
theorem xflat_apply (x : FVec Ideal S4x256x128x256 .f32) (n : Fin 4) (h : Fin 128) (w : Fin 256) (c : Fin 256) :
    xflat x (ix2 (pix n h w) c) = x (ix4 n c h w) := by
  unfold xflat
  refine (shapeCast_apply _ shapeCasts_S4x128x256x256_S131072x256 (ix2 (pix n h w) c) (ix4 n h w c) ?_).trans ?_
  · rw [Shape.rowMajor_val_four, Shape.rowMajor_val_two]
    rfl
  · refine transpose_apply _ x transposes_S4x256x128x256_S4x128x256x256_0_2_3_1 (ix4 n h w c) (ix4 n c h w) fun b => ?_
    match b with
    | ⟨0, _⟩ => rfl
    | ⟨1, _⟩ => rfl
    | ⟨2, _⟩ => rfl
    | ⟨3, _⟩ => rfl

/-- A similarity: a matrix row against a normalised prototype. -/
theorem sim_apply (xf : FVec Ideal S131072x256 .f32) (pn : FVec Ideal S19x10x256 .f32) (r : Fin 131072) (k : Fin 19) (j : Fin 10) :
    sim xf pn (ix3 r k j) = ∑ c : Fin 256, xf (ix2 r c) * pn (ix3 k j c) := by
  unfold sim
  show FloatOps.dotGeneral dot_S131072x256_S19x10x256_S131072x19x10_1_2_0_01_n_n none _ xf pn (ix3 r k j) = _
  rw [Ideal.dotGeneral_apply, ← Equiv.sum_comp (contrEquiv1 dot_S131072x256_S19x10x256_S131072x19x10_1_2_0_01_n_n 256 rfl rfl).symm]
  refine Finset.sum_congr rfl fun c _ => ?_
  have c2 := contrEquiv1_symm_val dot_S131072x256_S19x10x256_S131072x19x10_1_2_0_01_n_n 256 rfl rfl c
  have l2 : dot_S131072x256_S19x10x256_S131072x19x10_1_2_0_01_n_n.lhsIdx (ix3 r k j) ((contrEquiv1 dot_S131072x256_S19x10x256_S131072x19x10_1_2_0_01_n_n 256 rfl rfl).symm c) = ix2 r c := by
    funext ax; apply Fin.ext
    match ax with
    | ⟨0, _⟩ => simp [DotDims.lhsIdx, dot_S131072x256_S19x10x256_S131072x19x10_1_2_0_01_n_n]; rfl
    | ⟨1, _⟩ => simp [DotDims.lhsIdx, dot_S131072x256_S19x10x256_S131072x19x10_1_2_0_01_n_n]; exact c2
  have r2 : dot_S131072x256_S19x10x256_S131072x19x10_1_2_0_01_n_n.rhsIdx (ix3 r k j) ((contrEquiv1 dot_S131072x256_S19x10x256_S131072x19x10_1_2_0_01_n_n 256 rfl rfl).symm c) = ix3 k j c := by
    funext ax; apply Fin.ext
    match ax with
    | ⟨0, _⟩ => simp [DotDims.rhsIdx, dot_S131072x256_S19x10x256_S131072x19x10_1_2_0_01_n_n]; rfl
    | ⟨1, _⟩ => simp [DotDims.rhsIdx, dot_S131072x256_S19x10x256_S131072x19x10_1_2_0_01_n_n]; rfl
    | ⟨2, _⟩ => simp [DotDims.rhsIdx, dot_S131072x256_S19x10x256_S131072x19x10_1_2_0_01_n_n]; exact c2
  rw [l2, r2]

/-- A class score: the largest of the row's ten similarities with the class's prototypes. -/
theorem seg_apply (s : FVec Ideal S131072x19x10 .f32) (r : Fin 131072) (k : Fin 19) :
    seg s (ix2 r k) = (Finset.univ : Finset (Fin 10)).fold max negInf (fun j => s (ix3 r k j)) := by
  unfold seg
  refine (Host.reduce_eq_fold_single (FloatOps.maximumf (F := Ideal) (φ := .f32)) s
    (constant (F := Ideal) S_ .f32 0xFF800000#32) reducesTo_S131072x19x10_S131072x19_d2 hred2 h_S_ (ix2 r k)).trans ?_
  show (Finset.univ : Finset (Fin 10)).fold max negInf _ = _
  refine congrArg (fun f => Finset.fold max negInf f (Finset.univ : Finset (Fin 10))) (funext fun j => ?_)
  show s (hred2.lift (ix2 r k) j) = s (ix3 r k j)
  refine congrArg s ?_
  funext ax; apply Fin.ext
  match ax with
  | ⟨0, _⟩ => rfl
  | ⟨1, _⟩ => rfl
  | ⟨2, _⟩ => rfl

/-- A row's sum over the nineteen classes, started from zero. -/
theorem rowSum_apply (y : FVec Ideal S131072x19 .f32) (r : Fin 131072) :
    Host.reduceAdd y (constant (F := Ideal) S_ .f32 0x00000000#32) reducesTo_S131072x19_S131072_d1 h_S_ (ix1 r)
      = ∑ k : Fin 19, y (ix2 r k) := by
  show Ideal.hostReduceAdd reducesTo_S131072x19_S131072_d1 y (Ideal.ofBits .f32 0x00000000#32) (ix1 r) = _
  rw [Ideal.hostReduceAdd_single reducesTo_S131072x19_S131072_d1 hred1 y _ (ix1 r), Ideal.ofBits_zero_f32, zero_add]
  show (∑ k : Fin 19, y (hred1.lift (ix1 r) k)) = _
  refine Finset.sum_congr rfl fun k _ => congrArg y ?_
  funext ax; apply Fin.ext
  match ax with
  | ⟨0, _⟩ => rfl
  | ⟨1, _⟩ => rfl

/-- A row's mean. -/
theorem mean_apply (sg : FVec Ideal S131072x19 .f32) (r : Fin 131072) (u : Fin 1) :
    RefRun.mean sg (ix2 r u) = LayerNormProto.mean (fun k => sg (ix2 r k)) := by
  unfold RefRun.mean
  show Ideal.div
      (broadcastInDim S131072x1 ![0] bcast_S131072_S131072x1_0
        (Host.reduceAdd sg (constant (F := Ideal) S_ .f32 0x00000000#32) reducesTo_S131072x19_S131072_d1 h_S_) (ix2 r u))
      (broadcastInDim S131072x1 ![] bcast_S_S131072x1 (constant (F := Ideal) S_ .f32 0x41980000#32) (ix2 r u)) = _
  rw [Layout.bcast_vec_col _ bcast_S131072_S131072x1_0 r u, rowSum_apply,
    Layout.bcast_scalar _ bcast_S_S131072x1 (ix2 r u)]
  rfl

/-- The scores less their row's mean, as the variance helper forms them. -/
def dev (sg : FVec Ideal S131072x19 .f32) : FVec Ideal S131072x19 .f32 :=
  subf sg (broadcastInDim S131072x19 ![0, 1] bcast_S131072x1_S131072x19_0_1 (RefRun.mean sg))

theorem dev_apply (sg : FVec Ideal S131072x19 .f32) (r : Fin 131072) (k : Fin 19) :
    dev sg (ix2 r k) = sg (ix2 r k) - LayerNormProto.mean (fun k' => sg (ix2 r k')) := by
  show sg (ix2 r k) - broadcastInDim S131072x19 ![0, 1] bcast_S131072x1_S131072x19_0_1 (RefRun.mean sg) (ix2 r k) = _
  rw [Layout.bcast_col_mat _ bcast_S131072x1_S131072x19_0_1 r k, mean_apply]

/-- The variance helper, with its inner mean and deviations named. -/
theorem variance_eq (sg : FVec Ideal S131072x19 .f32) :
    RefRun.variance sg
      = select
          (broadcastInDim S131072x1 ![] bcast_S_S131072x1
            (cmpf .ogt (subf (constant (F := Ideal) S_ .f32 0x41980000#32) (sitofp .f32 (constantI S_ 32 0#32)))
              (constant (F := Ideal) S_ .f32 0x00000000#32)))
          (Host.divf
            (broadcastInDim S131072x1 ![0] bcast_S131072_S131072x1_0
              (Host.reduceAdd (mulf (dev sg) (dev sg)) (constant (F := Ideal) S_ .f32 0x00000000#32)
                reducesTo_S131072x19_S131072_d1 h_S_))
            (broadcastInDim S131072x1 ![] bcast_S_S131072x1
              (subf (constant (F := Ideal) S_ .f32 0x41980000#32) (sitofp .f32 (constantI S_ 32 0#32)))))
          (broadcastInDim S131072x1 ![] bcast_S_S131072x1 (id (constant (F := Ideal) S_ .f32 0x7FC00000#32))) := rfl

/-- A row's variance: the guard holds and the divisor is 19, so it is the mean of the squared deviations. -/
theorem variance_apply (sg : FVec Ideal S131072x19 .f32) (r : Fin 131072) (u : Fin 1) :
    RefRun.variance sg (ix2 r u) = LayerNormProto.variance (fun k => sg (ix2 r k)) := by
  rw [variance_eq, select_apply]
  have hc : broadcastInDim S131072x1 ![] bcast_S_S131072x1
      (cmpf .ogt (subf (constant (F := Ideal) S_ .f32 0x41980000#32) (sitofp .f32 (constantI S_ 32 0#32)))
        (constant (F := Ideal) S_ .f32 0x00000000#32)) (ix2 r u) = 1#1 := by
    rw [Layout.bcast_scalar _ bcast_S_S131072x1 (ix2 r u)]
    exact Consts.guard_pos
  rw [hc, select_one]
  show Ideal.div
      (broadcastInDim S131072x1 ![0] bcast_S131072_S131072x1_0
        (Host.reduceAdd (mulf (dev sg) (dev sg)) (constant (F := Ideal) S_ .f32 0x00000000#32)
          reducesTo_S131072x19_S131072_d1 h_S_) (ix2 r u))
      (broadcastInDim S131072x1 ![] bcast_S_S131072x1
        (subf (constant (F := Ideal) S_ .f32 0x41980000#32) (sitofp .f32 (constantI S_ 32 0#32))) (ix2 r u)) = _
  rw [Layout.bcast_vec_col _ bcast_S131072_S131072x1_0 r u, rowSum_apply,
    Layout.bcast_scalar _ bcast_S_S131072x1 (ix2 r u)]
  show Ideal.div (∑ k : Fin 19, mulf (dev sg) (dev sg) (ix2 r k))
      (Ideal.ofBits .f32 0x41980000#32 - (((0#32 : BitVec 32).toInt : ℝ) : EReal)) = _
  rw [Consts.nineteen_sub_zero]
  unfold LayerNormProto.variance
  refine congrArg (fun t => Ideal.div t nineteen) (Finset.sum_congr rfl fun k _ => ?_)
  show dev sg (ix2 r k) * dev sg (ix2 r k) = _
  rw [dev_apply]

/-- The layer norm of a row, scaled and shifted. -/
theorem normed_apply (sg : FVec Ideal S131072x19 .f32) (w b : FVec Ideal S19 .f32) (r : Fin 131072) (k : Fin 19) :
    normed sg w b (ix2 r k)
      = layerNorm (fun k' => sg (ix2 r k')) (fun k' => w (ix1 k')) (fun k' => b (ix1 k')) k := by
  unfold normed
  show (sg (ix2 r k) - broadcastInDim S131072x19 ![0, 1] bcast_S131072x1_S131072x19_0_1 (RefRun.mean sg) (ix2 r k))
        * broadcastInDim S131072x19 ![0, 1] bcast_S131072x1_S131072x19_0_1
            (Host.rsqrt (addf (RefRun.variance sg)
              (broadcastInDim S131072x1 ![] bcast_S_S131072x1 (constant (F := Ideal) S_ .f32 0x3727C5AC#32)))) (ix2 r k)
        * broadcastInDim S131072x19 ![0, 1] bcast_S1x19_S131072x19_0_1 (broadcastInDim S1x19 ![1] bcast_S19_S1x19_1 w) (ix2 r k)
      + broadcastInDim S131072x19 ![0, 1] bcast_S1x19_S131072x19_0_1 (broadcastInDim S1x19 ![1] bcast_S19_S1x19_1 b) (ix2 r k) = _
  rw [Layout.bcast_col_mat (RefRun.mean sg) bcast_S131072x1_S131072x19_0_1 r k,
    Layout.bcast_col_mat _ bcast_S131072x1_S131072x19_0_1 r k,
    Layout.bcast_row_mat (broadcastInDim S1x19 ![1] bcast_S19_S1x19_1 w) bcast_S1x19_S131072x19_0_1 r k,
    Layout.bcast_row_mat (broadcastInDim S1x19 ![1] bcast_S19_S1x19_1 b) bcast_S1x19_S131072x19_0_1 r k,
    Layout.bcast_vec_row w bcast_S19_S1x19_1 (0 : Fin 1) k, Layout.bcast_vec_row b bcast_S19_S1x19_1 (0 : Fin 1) k,
    mean_apply]
  show _ * Ideal.rsqrt (RefRun.variance sg (ix2 r (0 : Fin 1))
      + broadcastInDim S131072x1 ![] bcast_S_S131072x1 (constant (F := Ideal) S_ .f32 0x3727C5AC#32) (ix2 r (0 : Fin 1))) * _ + _ = _
  rw [variance_apply, Layout.bcast_scalar _ bcast_S_S131072x1 (ix2 r (0 : Fin 1))]
  rfl

/-- Back to (image, class, row, column): entry (n, k, h, w) is the matrix entry (pixel (n, h, w), class k). -/
theorem outOf_apply (y : FVec Ideal S131072x19 .f32) (n : Fin 4) (k : Fin 19) (h : Fin 128) (w : Fin 256) :
    outOf y (ix4 n k h w) = y (ix2 (pix n h w) k) := by
  unfold outOf
  refine (transpose_apply _ _ transposes_S4x128x256x19_S4x19x128x256_0_3_1_2 (ix4 n k h w) (ix4 n h w k) fun b => ?_).trans ?_
  · match b with
    | ⟨0, _⟩ => rfl
    | ⟨1, _⟩ => rfl
    | ⟨2, _⟩ => rfl
    | ⟨3, _⟩ => rfl
  · refine shapeCast_apply y shapeCasts_S131072x19_S4x128x256x19 (ix4 n h w k) (ix2 (pix n h w) k) ?_
    rw [Shape.rowMajor_val_two, Shape.rowMajor_val_four]
    rfl

/-- THE REFERENCE AT AN INDEX. -/
theorem refOut_apply (x : FVec Ideal S4x256x128x256 .f32) (p : FVec Ideal S19x10x256 .f32) (w b : FVec Ideal S19 .f32)
    (n : Fin 4) (k : Fin 19) (h : Fin 128) (w' : Fin 256) :
    refOut x p w b (ix4 n k h w')
      = pixelOut (fun k' j => ∑ c : Fin 256, x (ix4 n c h w') * protoN p (ix3 k' j c))
          (fun k' => w (ix1 k')) (fun k' => b (ix1 k')) k := by
  unfold refOut
  rw [outOf_apply, normed_apply]
  unfold pixelOut
  refine congrArg (fun sgf => layerNorm sgf _ _ k) (funext fun k' => ?_)
  rw [seg_apply]
  unfold classScore
  refine congrArg (fun f => Finset.fold max negInf f (Finset.univ : Finset (Fin 10))) (funext fun j => ?_)
  rw [sim_apply]
  refine Finset.sum_congr rfl fun c _ => ?_
  rw [xflat_apply]

end Cert.ReferenceIdeal.RefRead

end
-- ==== Proof.Bridge.lean ====
/-
  The two programs compute one function.

  The kernel program's result at (image n, class k, row h, column w) is the region's output at pixel 256 h + w of
  image n, read through the reshapes around the region: the pixel's result from the similarities
  `∑ c, normalised prototype (k', j) at c · feature c of pixel (n, h, w)`. The reference's is the same with the two
  factors of each product in the other order, and multiplication on the extended reals commutes. The normalised
  prototypes are the same composition of the same host operations in both programs.
-/
import proofs.«156458_j47399259078720_2_alg».proof.Proof.KernelRun
import proofs.«156458_j47399259078720_2_alg».proof.Proof.RefRead

noncomputable section

namespace Cert.KernelIdeal.Region

open Cert.KernelIdeal Cert.KernelIdeal.Gen Idealize.ShloMosaic Idealize.ShloMosaic.ValueIdx
open Cert.LayerNormProto

/-- Pixel (row h, column w) of an image on the merged pixel axis. -/
def pxl (h : Fin 128) (w : Fin 256) : Fin 32768 := ⟨h.val * 256 + w.val, by have := h.isLt; have := w.isLt; omega⟩

/-- THE KERNEL PROGRAM AT AN INDEX. -/
theorem kernelOut_apply (x : FVec Ideal S4x256x128x256 .f32) (p : FVec Ideal S19x10x256 .f32) (w b : FVec Ideal S19 .f32)
    (n : Fin 4) (k : Fin 19) (h : Fin 128) (w' : Fin 256) :
    kernelOut x p w b (ix4 n k h w')
      = pixelOut (fun k' j => ∑ c : Fin 256, normalised p (ix3 k' j c) * x (ix4 n c h w'))
          (fun k' => w (ix1 k')) (fun k' => b (ix1 k')) k := by
  unfold kernelOut
  refine (shapeCast_apply _ shapeCasts_S4x19x32768_S4x19x128x256 (ix4 n k h w') (ix3 n k (pxl h w')) ?_).trans ?_
  · rw [Shape.rowMajor_val_three, Shape.rowMajor_val_four]
    show (n.val * 19 + k.val) * 32768 + (h.val * 256 + w'.val) = ((n.val * 19 + k.val) * 128 + h.val) * 256 + w'.val
    omega
  · show outAt _ _ _ _ n k (pxl h w') = _
    unfold outAt
    have e0 : ∀ c : Fin 256, shapeCast S4x256x32768 x shapeCasts_S4x256x128x256_S4x256x32768 (ix3 n c (pxl h w'))
        = x (ix4 n c h w') := fun c =>
      shapeCast_apply x shapeCasts_S4x256x128x256_S4x256x32768 (ix3 n c (pxl h w')) (ix4 n c h w') (by
        rw [Shape.rowMajor_val_four, Shape.rowMajor_val_three]
        show ((n.val * 256 + c.val) * 128 + h.val) * 256 + w'.val = (n.val * 256 + c.val) * 32768 + (h.val * 256 + w'.val)
        omega)
    have e1 : ∀ (k' : Fin 19) (j : Fin 10) (c : Fin 256),
        shapeCast S190x256 (normalised p) shapeCasts_S19x10x256_S190x256 (ix2 (row k' j) c) = normalised p (ix3 k' j c) :=
      fun k' j c => shapeCast_apply (normalised p) shapeCasts_S19x10x256_S190x256 (ix2 (row k' j) c) (ix3 k' j c) (by
        rw [Shape.rowMajor_val_three, Shape.rowMajor_val_two]
        rfl)
    have e2 : ∀ (v : FVec Ideal S19 .f32) (k' : Fin 19),
        shapeCast S19x1 v shapeCasts_S19_S19x1 (ix2 k' (0 : Fin 1)) = v (ix1 k') := fun v k' =>
      shapeCast_apply v shapeCasts_S19_S19x1 (ix2 k' (0 : Fin 1)) (ix1 k') (by
        rw [Shape.rowMajor_val_one, Shape.rowMajor_val_two]
        show k'.val = k'.val * 1 + 0
        omega)
    simp only [e0, e1, e2]

end Cert.KernelIdeal.Region

namespace Cert.Proof.Bridge

open Idealize.ShloMosaic Idealize.ShloMosaic.ValueIdx Cert.LayerNormProto

/-- The normalised prototypes are one function of the prototype argument in both programs. -/
theorem normalised_eq (p : FVec Ideal Cert.KernelIdeal.S19x10x256 .f32) :
    Cert.KernelIdeal.Region.normalised p = Cert.ReferenceIdeal.RefRun.protoN (F := Ideal) p := rfl

/-- THE TWO RESULTS ARE EQUAL, entry by entry, as extended reals. -/
theorem result_eq (x : FVec Ideal Cert.KernelIdeal.S4x256x128x256 .f32) (p : FVec Ideal Cert.KernelIdeal.S19x10x256 .f32)
    (w b : FVec Ideal Cert.KernelIdeal.S19 .f32) :
    Cert.ReferenceIdeal.RefRun.refOut (F := Ideal) x p w b = Cert.KernelIdeal.Region.kernelOut x p w b := by
  funext i
  obtain ⟨n, k, h, w', rfl⟩ : ∃ (n : Fin 4) (k : Fin 19) (h : Fin 128) (w' : Fin 256), i = ix4 n k h w' :=
    ⟨i 0, i 1, i 2, i 3, eq_ix4 i⟩
  refine (Cert.ReferenceIdeal.RefRead.refOut_apply x p w b n k h w').trans
    (Eq.trans ?_ (Cert.KernelIdeal.Region.kernelOut_apply x p w b n k h w').symm)
  refine congrArg (fun sm => pixelOut sm (fun k' => w (ix1 k')) (fun k' => b (ix1 k')) k)
    (funext fun k' => funext fun j => Finset.sum_congr rfl fun c _ => ?_)
  rw [normalised_eq, mul_comm]

end Cert.Proof.Bridge

end
-- ==== Proof.lean ====
/-
  The certificate's five claims.

  Both programs compute, for every pixel of every image, the nineteen class scores — each the largest of ten inner
  products of the pixel's 256 features with a prototype normalised by its Euclidean norm plus a small constant —
  and layer-normalise them: `(score - mean) · (variance + ε)^(-1/2) · scale + shift`. The kernel forms the inner
  products as one 190 x 256 by 256 x 4096 matrix product per block of 4096 pixels and reduces down the columns;
  the reference forms them as a product of the pixel-major image matrix with the prototypes and reduces along the
  rows. On the extended reals the two are the same function entry by entry: the sums and the maxima are over the
  same finite sets, the products differ only in the order of their two factors, the literals are the same
  patterns on both sides, and the reference's variance helper divides by `19 - float(0)`, which is 19, under a
  guard `19 - float(0) > 0` that holds. No cancellation or distributive law is used, so the finiteness of the
  inputs is never needed.

  The three frames are the programs' runs with the result dropped; the idealization rewrote nothing, so the
  fourth claim is trivial; the fifth sets the two runs side by side.
-/
import proofs.«156458_j47399259078720_2_alg».proof.Defs
import proofs.«156458_j47399259078720_2_alg».proof.Proof.Gen.Kernel
import proofs.«156458_j47399259078720_2_alg».proof.Proof.Gen.Kernel.Frame
import proofs.«156458_j47399259078720_2_alg».proof.Proof.Gen.KernelIdeal
import proofs.«156458_j47399259078720_2_alg».proof.Proof.Gen.KernelIdeal.Frame
import proofs.«156458_j47399259078720_2_alg».proof.Proof.Gen.ReferenceIdeal
import proofs.«156458_j47399259078720_2_alg».proof.Proof.Gen.Pre_finite_inputs
import proofs.«156458_j47399259078720_2_alg».proof.Proof.KernelRun
import proofs.«156458_j47399259078720_2_alg».proof.Proof.RefRun
import proofs.«156458_j47399259078720_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs run, keep their arguments, and end with the
    same result: the kernel program's result function of the arguments, which the reference's equals. -/
theorem algebraic : Cert.algebraic_KernelIdeal_ReferenceIdeal := by
  intro m ρ m' ρ' _ hagree
  refine ⟨fun c => Cert.KernelIdeal.Region.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Region.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.Proof.Bridge.result_eq _ _ _ _

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
